-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  main_v53

def fn_part2 {F : FTy → Type} [FloatOps F] (main_arg8 : FVec F S128x128 .f32) (main_arg9 : FVec F S128x128 .f32) (main_arg10 : FVec F S128 .f32) (main_arg11 : FVec F S128x128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg11
  let main_cst_18 : FVec F S_ .f32 := constant S_ .f32 0x7F800000#32
  let main_v50 : FVec F S128x128 .f32 := broadcastInDim S128x128 ![] bcast_S_S128x128 main_cst_18
  fn_part3 (F := F) main_v48 main_v49 main_v50

def fn_part1 {F : FTy → Type} [FloatOps F] (main_arg5 : FVec F S128x128 .f32) (main_arg6 : FVec F S128x128 .f32) (main_arg7 : FVec F S128 .f32) (main_arg8 : FVec F S128x128 .f32) (main_arg9 : FVec F S128x128 .f32) (main_arg10 : FVec F S128 .f32) (main_arg11 : FVec F S128x128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S50000x128 .f32) (main_arg1 : IVec S2x800000 32) (main_arg2 : FVec F S800000 .f32) (main_arg3 : FVec F S128x128 .f32) (main_arg4 : FVec F S128 .f32) (main_arg5 : FVec F S128x128 .f32) (main_arg6 : FVec F S128x128 .f32) (main_arg7 : FVec F S128 .f32) (main_arg8 : FVec F S128x128 .f32) (main_arg9 : FVec F S128x128 .f32) (main_arg10 : FVec F S128 .f32) (main_arg11 : FVec F S128x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_v13 main_v16
-- ==== Kernel.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S1x800000 : Shape := ⟨2, ![1, 800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S5000x128 : Shape := ⟨2, ![5000, 128]⟩

abbrev nBuf : Space → Nat
  | .hbm => 70
  | .vmem => 27
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S_, .i32⟩
  | .hbm, ⟨17, _⟩ => ⟨S800000, .i32⟩
  | .hbm, ⟨18, _⟩ => ⟨S800000, .i1⟩
  | .hbm, ⟨19, _⟩ => ⟨S_, .i32⟩
  | .hbm, ⟨20, _⟩ => ⟨S800000, .i32⟩
  | .hbm, ⟨21, _⟩ => ⟨S800000, .i32⟩
  | .hbm, ⟨22, _⟩ => ⟨S800000, .i32⟩
  | .hbm, ⟨23, _⟩ => ⟨S800000x1, .i32⟩
  | .hbm, ⟨24, _⟩ => ⟨S800000x128, .f32⟩
  | .hbm, ⟨25, _⟩ => ⟨S800000x1, .f32⟩
  | .hbm, ⟨26, _⟩ => ⟨S800000x128, .f32⟩
  | .hbm, ⟨27, _⟩ => ⟨S800000x128, .f32⟩
  | .hbm, ⟨28, _⟩ => ⟨S_, .f32⟩
  | .hbm, ⟨29, _⟩ => ⟨S50000x128, .f32⟩
  | .hbm, ⟨30, _⟩ => ⟨S800000x1, .i32⟩
  | .hbm, ⟨31, _⟩ => ⟨S50000x128, .f32⟩
  | .hbm, ⟨32, _⟩ => ⟨S1x128, .f32⟩
  | .hbm, ⟨33, _⟩ => ⟨S50000x128, .f32⟩
  | .hbm, ⟨34, _⟩ => ⟨S_, .i32⟩
  | .hbm, ⟨35, _⟩ => ⟨S800000, .i32⟩
  | .hbm, ⟨36, _⟩ => ⟨S800000, .i1⟩
  | .hbm, ⟨37, _⟩ => ⟨S_, .i32⟩
  | .hbm, ⟨38, _⟩ => ⟨S800000, .i32⟩
  | .hbm, ⟨39, _⟩ => ⟨S800000, .i32⟩
  | .hbm, ⟨40, _⟩ => ⟨S800000, .i32⟩
  | .hbm, ⟨41, _⟩ => ⟨S800000x1, .i32⟩
  | .hbm, ⟨42, _⟩ => ⟨S800000x128, .f32⟩
  | .hbm, ⟨43, _⟩ => ⟨S800000x1, .f32⟩
  | .hbm, ⟨44, _⟩ => ⟨S800000x128, .f32⟩
  | .hbm, ⟨45, _⟩ => ⟨S800000x128, .f32⟩
  | .hbm, ⟨46, _⟩ => ⟨S_, .f32⟩
  | .hbm, ⟨47, _⟩ => ⟨S50000x128, .f32⟩
  | .hbm, ⟨48, _⟩ => ⟨S800000x1, .i32⟩
  | .hbm, ⟨49, _⟩ => ⟨S50000x128, .f32⟩
  | .hbm, ⟨50, _⟩ => ⟨S1x128, .f32⟩
  | .hbm, ⟨51, _⟩ => ⟨S50000x128, .f32⟩
  | .hbm, ⟨52, _⟩ => ⟨S_, .i32⟩
  | .hbm, ⟨53, _⟩ => ⟨S800000, .i32⟩
  | .hbm, ⟨54, _⟩ => ⟨S800000, .i1⟩
  | .hbm, ⟨55, _⟩ => ⟨S_, .i32⟩
  | .hbm, ⟨56, _⟩ => ⟨S800000, .i32⟩
  | .hbm, ⟨57, _⟩ => ⟨S800000, .i32⟩
  | .hbm, ⟨58, _⟩ => ⟨S800000, .i32⟩
  | .hbm, ⟨59, _⟩ => ⟨S800000x1, .i32⟩
  | .hbm, ⟨60, _⟩ => ⟨S800000x128, .f32⟩
  | .hbm, ⟨61, _⟩ => ⟨S800000x1, .f32⟩
  | .hbm, ⟨62, _⟩ => ⟨S800000x128, .f32⟩
  | .hbm, ⟨63, _⟩ => ⟨S800000x128, .f32⟩
  | .hbm, ⟨64, _⟩ => ⟨S_, .f32⟩
  | .hbm, ⟨65, _⟩ => ⟨S50000x128, .f32⟩
  | .hbm, ⟨66, _⟩ => ⟨S800000x1, .i32⟩
  | .hbm, ⟨67, _⟩ => ⟨S50000x128, .f32⟩
  | .hbm, ⟨68, _⟩ => ⟨S1x128, .f32⟩
  | .hbm, ⟨69, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S128x128, .f32⟩
  | .local _ .vmem, ⟨24, _⟩ => ⟨S1x128, .f32⟩
  | .local _ .vmem, ⟨25, _⟩ => ⟨S5000x128, .f32⟩
  | .local _ .vmem, ⟨26, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_1 : Ref sig .tc := ⟨.hbm, 34, rfl⟩
abbrev main_v19 : Ref sig .tc := ⟨.hbm, 35, rfl⟩
abbrev main_v20 : Ref sig .tc := ⟨.hbm, 36, rfl⟩
abbrev main_c_2 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_3 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_c_4 : Ref sig .tc := ⟨.hbm, 52, rfl⟩
abbrev main_v34 : Ref sig .tc := ⟨.hbm, 53, rfl⟩
abbrev main_v35 : Ref sig .tc := ⟨.hbm, 54, rfl⟩
abbrev main_c_5 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_6 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v16) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v17) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v31) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v32) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v33) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v46) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v33) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg11) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v47) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v48) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S1x800000 : Shape := ⟨2, ![1, 800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩

abbrev nBuf : Space → Nat
  | .hbm => 88
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S_, .i32⟩
  | .hbm, ⟨17, _⟩ => ⟨S800000, .i32⟩
  | .hbm, ⟨18, _⟩ => ⟨S800000, .i1⟩
  | .hbm, ⟨19, _⟩ => ⟨S_, .i32⟩
  | .hbm, ⟨20, _⟩ => ⟨S800000, .i32⟩
  | .hbm, ⟨21, _⟩ => ⟨S800000, .i32⟩
  | .hbm, ⟨22, _⟩ => ⟨S800000, .i32⟩
  | .hbm, ⟨23, _⟩ => ⟨S800000x1, .i32⟩
  | .hbm, ⟨24, _⟩ => ⟨S800000x128, .f32⟩
  | .hbm, ⟨25, _⟩ => ⟨S800000x1, .f32⟩
  | .hbm, ⟨26, _⟩ => ⟨S800000x128, .f32⟩
  | .hbm, ⟨27, _⟩ => ⟨S800000x128, .f32⟩
  | .hbm, ⟨28, _⟩ => ⟨S_, .f32⟩
  | .hbm, ⟨29, _⟩ => ⟨S50000x128, .f32⟩
  | .hbm, ⟨30, _⟩ => ⟨S800000x1, .i32⟩
  | .hbm, ⟨31, _⟩ => ⟨S50000x128, .f32⟩
  | .hbm, ⟨32, _⟩ => ⟨S50000x128, .f32⟩
  | .hbm, ⟨33, _⟩ => ⟨S1x128, .f32⟩
  | .hbm, ⟨34, _⟩ => ⟨S50000x128, .f32⟩
  | .hbm, ⟨35, _⟩ => ⟨S50000x128, .f32⟩
  | .hbm, ⟨36, _⟩ => ⟨S50000x128, .f32⟩
  | .hbm, ⟨37, _⟩ => ⟨S50000x128, .f32⟩
  | .hbm, ⟨38, _⟩ => ⟨S_, .f32⟩
  | .hbm, ⟨39, _⟩ => ⟨S50000x128, .f32⟩
  | .hbm, ⟨40, _⟩ => ⟨S50000x128, .f32⟩
  | .hbm, ⟨41, _⟩ => ⟨S_, .i32⟩
  | .hbm, ⟨42, _⟩ => ⟨S800000, .i32⟩
  | .hbm, ⟨43, _⟩ => ⟨S800000, .i1⟩
  | .hbm, ⟨44, _⟩ => ⟨S_, .i32⟩
  | .hbm, ⟨45, _⟩ => ⟨S800000, .i32⟩
  | .hbm, ⟨46, _⟩ => ⟨S800000, .i32⟩
  | .hbm, ⟨47, _⟩ => ⟨S800000, .i32⟩
  | .hbm, ⟨48, _⟩ => ⟨S800000x1, .i32⟩
  | .hbm, ⟨49, _⟩ => ⟨S800000x128, .f32⟩
  | .hbm, ⟨50, _⟩ => ⟨S800000x1, .f32⟩
  | .hbm, ⟨51, _⟩ => ⟨S800000x128, .f32⟩
  | .hbm, ⟨52, _⟩ => ⟨S800000x128, .f32⟩
  | .hbm, ⟨53, _⟩ => ⟨S_, .f32⟩
  | .hbm, ⟨54, _⟩ => ⟨S50000x128, .f32⟩
  | .hbm, ⟨55, _⟩ => ⟨S800000x1, .i32⟩
  | .hbm, ⟨56, _⟩ => ⟨S50000x128, .f32⟩
  | .hbm, ⟨57, _⟩ => ⟨S50000x128, .f32⟩
  | .hbm, ⟨58, _⟩ => ⟨S1x128, .f32⟩
  | .hbm, ⟨59, _⟩ => ⟨S50000x128, .f32⟩
  | .hbm, ⟨60, _⟩ => ⟨S50000x128, .f32⟩
  | .hbm, ⟨61, _⟩ => ⟨S50000x128, .f32⟩
  | .hbm, ⟨62, _⟩ => ⟨S50000x128, .f32⟩
  | .hbm, ⟨63, _⟩ => ⟨S_, .f32⟩
  | .hbm, ⟨64, _⟩ => ⟨S50000x128, .f32⟩
  | .hbm, ⟨65, _⟩ => ⟨S50000x128, .f32⟩
  | .hbm, ⟨66, _⟩ => ⟨S_, .i32⟩
  | .hbm, ⟨67, _⟩ => ⟨S800000, .i32⟩
  | .hbm, ⟨68, _⟩ => ⟨S800000, .i1⟩
  | .hbm, ⟨69, _⟩ => ⟨S_, .i32⟩
  | .hbm, ⟨70, _⟩ => ⟨S800000, .i32⟩
  | .hbm, ⟨71, _⟩ => ⟨S800000, .i32⟩
  | .hbm, ⟨72, _⟩ => ⟨S800000, .i32⟩
  | .hbm, ⟨73, _⟩ => ⟨S800000x1, .i32⟩
  | .hbm, ⟨74, _⟩ => ⟨S800000x128, .f32⟩
  | .hbm, ⟨75, _⟩ => ⟨S800000x1, .f32⟩
  | .hbm, ⟨76, _⟩ => ⟨S800000x128, .f32⟩
  | .hbm, ⟨77, _⟩ => ⟨S800000x128, .f32⟩
  | .hbm, ⟨78, _⟩ => ⟨S_, .f32⟩
  | .hbm, ⟨79, _⟩ => ⟨S50000x128, .f32⟩
  | .hbm, ⟨80, _⟩ => ⟨S800000x1, .i32⟩
  | .hbm, ⟨81, _⟩ => ⟨S50000x128, .f32⟩
  | .hbm, ⟨82, _⟩ => ⟨S50000x128, .f32⟩
  | .hbm, ⟨83, _⟩ => ⟨S1x128, .f32⟩
  | .hbm, ⟨84, _⟩ => ⟨S50000x128, .f32⟩
  | .hbm, ⟨85, _⟩ => ⟨S50000x128, .f32⟩
  | .hbm, ⟨86, _⟩ => ⟨S50000x128, .f32⟩
  | .hbm, ⟨87, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_call0_cst : Ref sig .tc := ⟨.hbm, 38, rfl⟩
abbrev main_call0_v0 : Ref sig .tc := ⟨.hbm, 39, rfl⟩
abbrev main_v23 : Ref sig .tc := ⟨.hbm, 40, rfl⟩
abbrev main_c_1 : Ref sig .tc := ⟨.hbm, 41, rfl⟩
abbrev main_v24 : Ref sig .tc := ⟨.hbm, 42, rfl⟩
abbrev main_v25 : Ref sig .tc := ⟨.hbm, 43, rfl⟩
abbrev main_c_2 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_3 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_call1_cst : Ref sig .tc := ⟨.hbm, 63, rfl⟩
abbrev main_call1_v0 : Ref sig .tc := ⟨.hbm, 64, rfl⟩
abbrev main_v43 : Ref sig .tc := ⟨.hbm, 65, rfl⟩
abbrev main_c_4 : Ref sig .tc := ⟨.hbm, 66, rfl⟩
abbrev main_v44 : Ref sig .tc := ⟨.hbm, 67, rfl⟩
abbrev main_v45 : Ref sig .tc := ⟨.hbm, 68, rfl⟩
abbrev main_c_5 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_6 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KernelRun.lean ====
/-
  The tiled program's run with its result named.

  The program is six stretches in a row: host operations, the first layer's tiled call, host operations, the second
  layer's call, host operations, the third layer's call.  The contents of every buffer at each of the seven boundaries
  are a fold through the program: a host stretch applies its operations to the contents before it, a tiled call
  replaces its six arrays by what its write-backs leave and keeps every other buffer.  The generated frame proves, from
  this fold, that the argument arrays end as launched.  The same launch theorem, with the final state read at EVERY
  buffer that outlives a call instead of at the arguments only, says that every such buffer ends at the last
  boundary's contents; in particular the result array does.
-/
import proofs.«179297_j1597727834802_1_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, and in its final state every buffer that
    outlives the tiled calls holds the last boundary's contents (the fold `Gen.W6`). -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

/-- The run with the result array and the twelve argument arrays named: the result holds the last boundary's
    contents, the arguments are as launched. -/
theorem run : θ_run defs (onTc (τ := τ) (main (F := F))) ⟨m, fun _ => 0, ρ⟩ (fun r => ∀ c : Dev nD,
      r.2.mem ((c.tc : Thread nD τ).loc main_v48) = W6 m ρ c (Proc.devRef .tc main_v48)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun s h c =>
      ⟨h c _ (mem_uc main_v48 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c)⟩)
    (run_all m ρ)

end Cert.KernelIdeal.RunValue

end
-- ==== Proof.LayerSpec.lean ====
/-
  What one graph-convolution layer computes, as a function on extended-real arrays, read one entry at a time.

  A layer takes the node features h : [50000, 128], the neighbourhood sums a : [50000, 128] (already aggregated
  over the edges), two weight matrices w r : [128, 128] and a bias b : [128], and returns

      out (p, q) = (sum_k a (p,k) * w (k,q)  +  b q)  +  sum_k h (p,k) * r (k,q).

  The tiled program adds the two matrix products first and the bias last; the plain program adds the bias between
  them.  On the extended reals addition is commutative and associative without any finiteness assumption, so the
  two groupings agree entry by entry (dense_regroup).  The rectifier is the entrywise maximum with the constant 0.
-/
import Idealize.ShloMosaic.PureOps.Ideal
import Idealize.ShloMosaic.Lib.ValueIdx

noncomputable section

open scoped BigOperators

namespace Cert.GraphConv

open Idealize.ShloMosaic Idealize.ShloMosaic.ValueIdx

/-- Node features: 50000 nodes, 128 channels. -/
abbrev SN : Shape := ⟨2, ![50000, 128]⟩
/-- A weight matrix. -/
abbrev SW : Shape := ⟨2, ![128, 128]⟩
/-- A bias vector. -/
abbrev SB : Shape := ⟨1, ![128]⟩
/-- A bias vector laid out as one row. -/
abbrev SB2 : Shape := ⟨2, ![1, 128]⟩

/-- Entry (p, q) of a · w + b + h · r, the bias added between the two products. -/
def denseAt (a h : FVec Ideal SN .f32) (w r : FVec Ideal SW .f32) (b : Fin 128 → EReal) (p : Fin 50000) (q : Fin 128) : EReal :=
  ((∑ k : Fin 128, a (ix2 p k) * w (ix2 k q)) + b q) + ∑ k : Fin 128, h (ix2 p k) * r (ix2 k q)

/-- Entry (p, q) of (a · w + h · r) + b, the bias added last. -/
def denseLastAt (a h : FVec Ideal SN .f32) (w r : FVec Ideal SW .f32) (b : Fin 128 → EReal) (p : Fin 50000) (q : Fin 128) : EReal :=
  ((∑ k : Fin 128, a (ix2 p k) * w (ix2 k q)) + ∑ k : Fin 128, h (ix2 p k) * r (ix2 k q)) + b q

/-- The two groupings of the three summands agree: addition on the extended reals is commutative and associative. -/
theorem dense_regroup (a h : FVec Ideal SN .f32) (w r : FVec Ideal SW .f32) (b : Fin 128 → EReal) (p : Fin 50000) (q : Fin 128) :
    denseLastAt a h w r b p q = denseAt a h w r b p q := by
  unfold denseLastAt denseAt
  exact add_right_comm _ _ _

/-- The layer's affine part as an array, the bias a vector. -/
def dense (a h : FVec Ideal SN .f32) (w r : FVec Ideal SW .f32) (b : FVec Ideal SB .f32) : FVec Ideal SN .f32 :=
  fun i => denseAt a h w r (fun q => b (ix1 q)) (i 0) (i 1)

/-- The same with the bias given as a one-row matrix and added last: what one tiled call computes. -/
def denseRow (a h : FVec Ideal SN .f32) (w r : FVec Ideal SW .f32) (b2 : FVec Ideal SB2 .f32) : FVec Ideal SN .f32 :=
  fun i => denseLastAt a h w r (fun q => b2 (ix2 (0 : Fin 1) q)) (i 0) (i 1)

/-- When the row holds the vector's entries, the tiled call's array is the layer's. -/
theorem denseRow_eq (a h : FVec Ideal SN .f32) (w r : FVec Ideal SW .f32) (b : FVec Ideal SB .f32) (b2 : FVec Ideal SB2 .f32)
    (hb : ∀ q : Fin 128, b2 (ix2 (0 : Fin 1) q) = b (ix1 q)) : denseRow a h w r b2 = dense a h w r b := by
  funext i
  obtain ⟨p, q, rfl⟩ : ∃ (p : Fin 50000) (q : Fin 128), i = ix2 p q := ⟨i 0, i 1, eq_ix2 i⟩
  show denseLastAt a h w r (fun q => b2 (ix2 (0 : Fin 1) q)) p q = denseAt a h w r (fun q => b (ix1 q)) p q
  rw [dense_regroup]
  simp only [hb]

/-! ## The aggregation over the edges

The 800000 edges come as a [2, 800000] array of node numbers (row 0 the sources, row 1 the targets) and one weight
per edge.  A negative source number counts from the end (50000 is added to it).  Every edge contributes the source
node's feature row times the edge's weight, and the contributions are summed into the target node's row. -/

abbrev S0 : Shape := ⟨0, ![]⟩
abbrev SE : Shape := ⟨1, ![800000]⟩
abbrev S2E : Shape := ⟨2, ![2, 800000]⟩
abbrev S1E : Shape := ⟨2, ![1, 800000]⟩
abbrev SE1 : Shape := ⟨2, ![800000, 1]⟩
abbrev SEN : Shape := ⟨2, ![800000, 128]⟩

theorem slices_row0 : S2E.Slices ![0, 0] S1E := by decide
theorem slices_row1 : S2E.Slices ![1, 0] S1E := by decide
theorem casts_row : S1E.ShapeCasts SE := by decide
theorem bcast_S0_SE : S0.BroadcastsInDim SE (![] : Fin 0 → Fin SE.rank) := by decide
theorem bcast_SE_SE1 : SE.BroadcastsInDim SE1 (![0] : Fin 1 → Fin SE1.rank) := by decide
theorem bcast_SE1_SEN : SE1.BroadcastsInDim SEN (![0, 1] : Fin 2 → Fin SEN.rank) := by decide
theorem bcast_S0_SN : S0.BroadcastsInDim SN (![] : Fin 0 → Fin SN.rank) := by decide
theorem rowGather_wf : GatherDims.WF SN SE1 SEN [1] [0] [] [0] [] 1 ![1, 128] := by decide
theorem rowScatter_wf : ScatterDims.WF SN SE1 SEN [1] [0] [0] 1 := by decide

/-- Row gather: one whole feature row per edge. -/
def rowGather : GatherDims SN SE1 SEN where
  offsetDims := [1]
  collapsedSliceDims := [0]
  operandBatchingDims := []
  startIndicesBatchingDims := []
  startIndexMap := [0]
  indexVectorDim := 1
  sliceSizes := ![1, 128]
  wf := rowGather_wf

/-- Row scatter: one whole row per edge, summed into the target node's row. -/
def rowScatter : ScatterDims SN SE1 SEN where
  updateWindowDims := [1]
  insertedWindowDims := [0]
  scatterDimsToOperandDims := [0]
  indexVectorDim := 1
  wf := rowScatter_wf

/-- Row 0 of the edge array: the source node numbers as given. -/
def rawSources (ei : Vec Ideal S2E .i32) : Vec Ideal SE .i32 :=
  shapeCast _ (extractStridedSlice S1E ![0, 0] ei slices_row0) casts_row

/-- A negative node number counts from the end: 50000 is added to it. -/
def wrapIndex (s : Vec Ideal SE .i32) : Vec Ideal SE .i32 :=
  select (cmpi .slt s (broadcastInDim SE ![] bcast_S0_SE (constantI S0 32 0#32)))
    (addi s (broadcastInDim SE ![] bcast_S0_SE (constantI S0 32 50000#32))) s

/-- The source node of every edge, a negative number counted from the end. -/
def sources (ei : Vec Ideal S2E .i32) : Vec Ideal SE .i32 := wrapIndex (rawSources ei)

/-- The target node of every edge. -/
def targets (ei : Vec Ideal S2E .i32) : Vec Ideal SE .i32 :=
  shapeCast _ (extractStridedSlice S1E ![1, 0] ei slices_row1) casts_row

/-- The weighted neighbourhood sums of the features `h` from the two rows of node numbers `s` (sources as given)
    and `d` (targets): for every edge the source's row times the edge's weight, summed into the target's row,
    starting from zero. -/
def aggregateFrom (s d : Vec Ideal SE .i32) (ea : FVec Ideal SE .f32) (h : FVec Ideal SN .f32) : FVec Ideal SN .f32 :=
  Host.scatterAdd rowScatter (broadcastInDim SN ![] bcast_S0_SN (constant S0 .f32 0x00000000#32))
    (broadcastInDim SE1 ![0] bcast_SE_SE1 d)
    (mulf (Host.gather rowGather h (broadcastInDim SE1 ![0] bcast_SE_SE1 (wrapIndex s)))
      (broadcastInDim SEN ![0, 1] bcast_SE1_SEN (broadcastInDim SE1 ![0] bcast_SE_SE1 ea)))

/-- The weighted neighbourhood sums of the features `h` over the edge array `ei`. -/
def aggregate (ei : Vec Ideal S2E .i32) (ea : FVec Ideal SE .f32) (h : FVec Ideal SN .f32) : FVec Ideal SN .f32 :=
  aggregateFrom (rawSources ei) (targets ei) ea h

/-- The rectifier: the entrywise maximum with zero. -/
def relu (x : FVec Ideal SN .f32) : FVec Ideal SN .f32 :=
  fun i => max (x i) (Ideal.ofBits .f32 0x00000000#32)

/-- Three layers on top of an aggregation `agg` (the same map of the features in every layer), rectified after the
    first two. -/
def net (agg : FVec Ideal SN .f32 → FVec Ideal SN .f32) (x : FVec Ideal SN .f32)
    (w0 : FVec Ideal SW .f32) (b0 : FVec Ideal SB .f32) (r0 : FVec Ideal SW .f32)
    (w1 : FVec Ideal SW .f32) (b1 : FVec Ideal SB .f32) (r1 : FVec Ideal SW .f32)
    (w2 : FVec Ideal SW .f32) (b2 : FVec Ideal SB .f32) (r2 : FVec Ideal SW .f32) : FVec Ideal SN .f32 :=
  let h1 := relu (dense (agg x) x w0 r0 b0)
  let h2 := relu (dense (agg h1) h1 w1 r1 b1)
  dense (agg h2) h2 w2 r2 b2

end Cert.GraphConv

end
-- ==== Proof.HostStretch.lean ====
/-
  The buffers the three tiled calls find when they are entered.

  Between the tiled calls the program runs plain array operations: before every call the neighbourhood sums of the
  current features (two rows of node numbers are cut out of the edge array once, before the first call, and reused;
  a negative source number is wrapped; one feature row per edge is gathered, scaled by the edge's weight, and summed
  into the target node's row) and the layer's bias laid out as a one-row matrix.  Nothing else is written: the weight
  matrices, the biases, the edge weights and the two rows of node numbers reach every later call as they were.
-/
import proofs.«179297_j1597727834802_1_alg».proof.Proof.Gen.KernelIdeal.Frame
import proofs.«179297_j1597727834802_1_alg».proof.Proof.LayerSpec
import Idealize.ShloMosaic.Lib.StableHlo.Run

set_option maxRecDepth 16384

noncomputable section

namespace Cert.KernelIdeal.HostValue

open Idealize.ShloMosaic Idealize.ShloMosaic.TcCoe Idealize.SL.Sem
open Cert.KernelIdeal Cert.KernelIdeal.Gen Cert.GraphConv

variable (m : (ℓ : Loc nD τ sig) → Buf (Elt Ideal) ℓ) (ρ : Dev nD → PrngReg)

/-! ## What each stretch of plain operations writes -/

/-- The buffers written before the first tiled call. -/
abbrev written0 : List (Ref sig .tc) :=
  [main_v0, main_v1, main_v2, main_v3, main_c, main_v4, main_v5, main_c_0, main_v6, main_v7, main_v8, main_v9, main_v10,
   main_v11, main_v12, main_v13, main_cst, main_v14, main_v15, main_v16, main_v17]
/-- The buffers written between the first and the second tiled call. -/
abbrev written1 : List (Ref sig .tc) :=
  [main_c_1, main_v19, main_v20, main_c_2, main_v21, main_v22, main_v23, main_v24, main_v25, main_v26, main_v27, main_v28,
   main_cst_3, main_v29, main_v30, main_v31, main_v32]
/-- The buffers written between the second and the third tiled call. -/
abbrev written2 : List (Ref sig .tc) :=
  [main_c_4, main_v34, main_v35, main_c_5, main_v36, main_v37, main_v38, main_v39, main_v40, main_v41, main_v42, main_v43,
   main_cst_6, main_v44, main_v45, main_v46, main_v47]

theorem writes0 : (hostOps0 : List (HloOp τ sig (Elt Ideal))).Forall fun op =>
    op.writes ⊆ (written0.map (Proc.devRef (τ := τ) .tc)).toFinset := by
  simp only [hostOps0, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

theorem writes1 : (hostOps1 : List (HloOp τ sig (Elt Ideal))).Forall fun op =>
    op.writes ⊆ (written1.map (Proc.devRef (τ := τ) .tc)).toFinset := by
  simp only [hostOps1, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

theorem writes2 : (hostOps2 : List (HloOp τ sig (Elt Ideal))).Forall fun op =>
    op.writes ⊆ (written2.map (Proc.devRef (τ := τ) .tc)).toFinset := by
  simp only [hostOps2, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

/-! ## A buffer a stretch does not write keeps its contents -/

theorem W1_keep (c : Dev nD) (r : Ref sig .tc) (h : r ∉ written0) :
    W1 m ρ c (Proc.devRef .tc r) = m ((c : Thread nD τ).loc r) :=
  StableHlo.after_of_writes_sub hostOps0 _ writes0 h

theorem W3_keep (c : Dev nD) (r : Ref sig .tc) (h : r ∉ written1) :
    W3 m ρ c (Proc.devRef .tc r) = W2 m ρ c (Proc.devRef .tc r) :=
  StableHlo.after_of_writes_sub hostOps1 _ writes1 h

theorem W5_keep (c : Dev nD) (r : Ref sig .tc) (h : r ∉ written2) :
    W5 m ρ c (Proc.devRef .tc r) = W4 m ρ c (Proc.devRef .tc r) :=
  StableHlo.after_of_writes_sub hostOps2 _ writes2 h

/-- A buffer that neither the first stretch nor the first tiled call touches is as launched when the first call
    has returned. -/
theorem W2_launch (c : Dev nD) (r : Ref sig .tc) (h0 : r ∉ written0) (hr0 : ∀ w, Pipeline.arrRef spec0 w ≠ r) :
    W2 m ρ c (Proc.devRef .tc r) = m ((c : Thread nD τ).loc r) :=
  (W2_of_ne m ρ c r hr0).trans (W1_keep m ρ c r h0)

/-- The same up to the return of the second call. -/
theorem W4_launch (c : Dev nD) (r : Ref sig .tc) (h0 : r ∉ written0) (hr0 : ∀ w, Pipeline.arrRef spec0 w ≠ r)
    (h1 : r ∉ written1) (hr1 : ∀ w, Pipeline.arrRef spec1 w ≠ r) :
    W4 m ρ c (Proc.devRef .tc r) = m ((c : Thread nD τ).loc r) :=
  (W4_of_ne m ρ c r hr1).trans ((W3_keep m ρ c r h1).trans (W2_launch m ρ c r h0 hr0))

/-- The same facts read as a tiled call's entry contents. -/
theorem V1_keep (c : Dev nD) (r : Ref sig .tc) (h : r ∉ written0) : V1 m ρ c r = m ((c : Thread nD τ).loc r) :=
  W1_keep m ρ c r h

theorem V3_keep (c : Dev nD) (r : Ref sig .tc) (h : r ∉ written1) : V3 m ρ c r = W2 m ρ c (Proc.devRef .tc r) :=
  W3_keep m ρ c r h

theorem V3_launch (c : Dev nD) (r : Ref sig .tc) (h0 : r ∉ written0) (hr0 : ∀ w, Pipeline.arrRef spec0 w ≠ r)
    (h1 : r ∉ written1) : V3 m ρ c r = m ((c : Thread nD τ).loc r) :=
  (W3_keep m ρ c r h1).trans (W2_launch m ρ c r h0 hr0)

theorem V5_keep (c : Dev nD) (r : Ref sig .tc) (h : r ∉ written2) : V5 m ρ c r = W4 m ρ c (Proc.devRef .tc r) :=
  W5_keep m ρ c r h

theorem V5_launch (c : Dev nD) (r : Ref sig .tc) (h0 : r ∉ written0) (hr0 : ∀ w, Pipeline.arrRef spec0 w ≠ r)
    (h1 : r ∉ written1) (hr1 : ∀ w, Pipeline.arrRef spec1 w ≠ r) (h2 : r ∉ written2) :
    V5 m ρ c r = m ((c : Thread nD τ).loc r) :=
  (W5_keep m ρ c r h2).trans (W4_launch m ρ c r h0 hr0 h1 hr1)

/-! ## The two rows of node numbers, cut out once -/

theorem W1_sources (c : Dev nD) :
    W1 m ρ c (Proc.devRef .tc main_v1) = rawSources (m ((c : Thread nD τ).loc main_arg1)) := by
  show StableHlo.after hostOps0 _ (Proc.devRef .tc main_v1) = _
  after_results
  rfl

theorem W1_targets (c : Dev nD) :
    W1 m ρ c (Proc.devRef .tc main_v3) = targets (m ((c : Thread nD τ).loc main_arg1)) := by
  show StableHlo.after hostOps0 _ (Proc.devRef .tc main_v3) = _
  after_results
  rfl

/-! ## What the first tiled call finds -/

theorem V1_agg (c : Dev nD) :
    V1 m ρ c main_v16 = aggregate (m ((c : Thread nD τ).loc main_arg1)) (m ((c : Thread nD τ).loc main_arg2))
      (m ((c : Thread nD τ).loc main_arg0)) := by
  show StableHlo.after hostOps0 _ (Proc.devRef .tc main_v16) = _
  after_results
  rfl

theorem V1_bias (c : Dev nD) :
    V1 m ρ c main_v17 = shapeCast _ (m ((c : Thread nD τ).loc main_arg4)) shapeCasts_S128_S1x128 := by
  show StableHlo.after hostOps0 _ (Proc.devRef .tc main_v17) = _
  after_results
  rfl

/-! ## What the second tiled call finds -/

theorem V3_agg (c : Dev nD) :
    V3 m ρ c main_v31 = aggregate (m ((c : Thread nD τ).loc main_arg1)) (m ((c : Thread nD τ).loc main_arg2))
      (W2 m ρ c (Proc.devRef .tc main_v18)) := by
  have e : V3 m ρ c main_v31 = aggregateFrom (W2 m ρ c (Proc.devRef .tc main_v1)) (W2 m ρ c (Proc.devRef .tc main_v3))
      (W2 m ρ c (Proc.devRef .tc main_arg2)) (W2 m ρ c (Proc.devRef .tc main_v18)) := by
    show StableHlo.after hostOps1 _ (Proc.devRef .tc main_v31) = _
    after_results
    rfl
  rw [e, W2_of_ne m ρ c main_v1 (by decide), W2_of_ne m ρ c main_v3 (by decide), W1_sources, W1_targets,
    W2_launch m ρ c main_arg2 (by decide) (by decide)]
  rfl

theorem V3_bias (c : Dev nD) :
    V3 m ρ c main_v32 = shapeCast _ (m ((c : Thread nD τ).loc main_arg7)) shapeCasts_S128_S1x128 := by
  have e : V3 m ρ c main_v32 = shapeCast _ (W2 m ρ c (Proc.devRef .tc main_arg7)) shapeCasts_S128_S1x128 := by
    show StableHlo.after hostOps1 _ (Proc.devRef .tc main_v32) = _
    after_results
    rfl
  rw [e, W2_launch m ρ c main_arg7 (by decide) (by decide)]

/-! ## What the third tiled call finds -/

theorem V5_agg (c : Dev nD) :
    V5 m ρ c main_v46 = aggregate (m ((c : Thread nD τ).loc main_arg1)) (m ((c : Thread nD τ).loc main_arg2))
      (W4 m ρ c (Proc.devRef .tc main_v33)) := by
  have e : V5 m ρ c main_v46 = aggregateFrom (W4 m ρ c (Proc.devRef .tc main_v1)) (W4 m ρ c (Proc.devRef .tc main_v3))
      (W4 m ρ c (Proc.devRef .tc main_arg2)) (W4 m ρ c (Proc.devRef .tc main_v33)) := by
    show StableHlo.after hostOps2 _ (Proc.devRef .tc main_v46) = _
    after_results
    rfl
  rw [e, W4_of_ne m ρ c main_v1 (by decide), W3_keep m ρ c main_v1 (by decide), W2_of_ne m ρ c main_v1 (by decide),
    W4_of_ne m ρ c main_v3 (by decide), W3_keep m ρ c main_v3 (by decide), W2_of_ne m ρ c main_v3 (by decide),
    W1_sources, W1_targets, W4_launch m ρ c main_arg2 (by decide) (by decide) (by decide) (by decide)]
  rfl

theorem V5_bias (c : Dev nD) :
    V5 m ρ c main_v47 = shapeCast _ (m ((c : Thread nD τ).loc main_arg10)) shapeCasts_S128_S1x128 := by
  have e : V5 m ρ c main_v47 = shapeCast _ (W4 m ρ c (Proc.devRef .tc main_arg10)) shapeCasts_S128_S1x128 := by
    show StableHlo.after hostOps2 _ (Proc.devRef .tc main_v47) = _
    after_results
    rfl
  rw [e, W4_launch m ρ c main_arg10 (by decide) (by decide) (by decide) (by decide)]

end Cert.KernelIdeal.HostValue

end
-- ==== Proof.TileValue.lean ====
/-
  One tile of a layer: what the tiled call's body leaves at entry (p, q) of its 5000 x 128 output block.

  The body multiplies the block of aggregated features and the block of node features (5000 rows each) by their
  128 x 128 weight matrices, adds the two products, adds the bias row, and (in the first two layers) takes the maximum
  with zero.  Changing the number format of a factor is the identity on the extended reals, and a matrix product into
  a zero accumulator is the plain sum over the 128 contracted positions.
-/
import proofs.«179297_j1597727834802_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.TileValue

open Idealize.ShloMosaic Idealize.ShloMosaic.ValueIdx Cert.KernelIdeal Cert.KernelIdeal.Gen

/-- Entry (p, q) of the affine part of a tile: both products first, the bias row last. -/
def tileAt (x0 x1 : Vec Ideal S5000x128 .f32) (x2 x3 : Vec Ideal S128x128 .f32) (x4 : Vec Ideal S1x128 .f32)
    (p : Fin 5000) (q : Fin 128) : EReal :=
  ((∑ k : Fin 128, x0 (ix2 p k) * x2 (ix2 k q)) + ∑ k : Fin 128, x1 (ix2 p k) * x3 (ix2 k q)) + x4 (ix2 (0 : Fin 1) q)

/-! ## One matrix product at an entry

The product contracts the second axis of its left factor with the first axis of its right factor; there is no batch
axis.  So at output entry (p, q) and contraction position k the left factor is read at (p, k) and the right at (k, q). -/

/-- The left factor's row is the output's row. -/
theorem lhs_row (j : S5000x128.Idx) (c : dot_S5000x128_S128x128_S5000x128_1_0_0_1_n_n.contr.Idx) :
    (dot_S5000x128_S128x128_S5000x128_1_0_0_1_n_n.lhsIdx j c 0).val = (j 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl

/-- The left factor's column is the contraction position. -/
theorem lhs_col (j : S5000x128.Idx) (c : dot_S5000x128_S128x128_S5000x128_1_0_0_1_n_n.contr.Idx) :
    (dot_S5000x128_S128x128_S5000x128_1_0_0_1_n_n.lhsIdx j c 1).val = (c ⟨0, by decide⟩).val :=
  dot_S5000x128_S128x128_S5000x128_1_0_0_1_n_n.lhsIdx_val_of_single rfl j c

/-- The right factor's row is the contraction position. -/
theorem rhs_row (j : S5000x128.Idx) (c : dot_S5000x128_S128x128_S5000x128_1_0_0_1_n_n.contr.Idx) :
    (dot_S5000x128_S128x128_S5000x128_1_0_0_1_n_n.rhsIdx j c 0).val = (c ⟨0, by decide⟩).val :=
  dot_S5000x128_S128x128_S5000x128_1_0_0_1_n_n.rhsIdx_val_of_single rfl j c

/-- The right factor's column is the output's column. -/
theorem rhs_col (j : S5000x128.Idx) (c : dot_S5000x128_S128x128_S5000x128_1_0_0_1_n_n.contr.Idx) :
    (dot_S5000x128_S128x128_S5000x128_1_0_0_1_n_n.rhsIdx j c 1).val = (j 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- A product of two narrowed factors into a zero accumulator, at entry (p, q): narrowing is the identity on the
    extended reals, the zero accumulator adds nothing, and the one-axis contraction index is re-indexed by its single
    coordinate, which leaves the plain sum over the 128 contracted positions. -/
theorem mm_at (a : FVec Ideal S5000x128 .f32) (w : FVec Ideal S128x128 .f32) (p : Fin 5000) (q : Fin 128) :
    matmul (F := Ideal) dot_S5000x128_S128x128_S5000x128_1_0_0_1_n_n none (truncf .bf16 a bitsLt_bf16_f32) (truncf .bf16 w bitsLt_bf16_f32)
      (constant (F := Ideal) S5000x128 .f32 0x00000000#32) (ix2 p q) = ∑ k : Fin 128, a (ix2 p k) * w (ix2 k q) := by
  refine (Ideal.matmul_constant_zero_apply dot_S5000x128_S128x128_S5000x128_1_0_0_1_n_n none _ _ (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k :=
    funext fun a => Fin.ext (by
      match a with
      | ⟨0, _⟩ => exact lhs_row _ _
      | ⟨1, _⟩ => exact (lhs_col _ _).trans hk)
  have er : dot_S5000x128_S128x128_S5000x128_1_0_0_1_n_n.rhsIdx (ix2 p q) ((contrEquiv1 dot_S5000x128_S128x128_S5000x128_1_0_0_1_n_n 128 rfl rfl).symm k) = ix2 k q :=
    funext fun a => Fin.ext (by
      match a with
      | ⟨0, _⟩ => exact (rhs_row _ _).trans hk
      | ⟨1, _⟩ => exact rhs_col _ _)
  rw [el, er]
  rfl

/-- The same when the left factor is first recast to its own shape, which changes nothing. -/
theorem mm_cast_at (a : FVec Ideal S5000x128 .f32) (w : FVec Ideal S128x128 .f32) (p : Fin 5000) (q : Fin 128) :
    matmul (F := Ideal) dot_S5000x128_S128x128_S5000x128_1_0_0_1_n_n none
      (truncf .bf16 (shapeCast S5000x128 a shapeCasts_S5000x128_S5000x128) bitsLt_bf16_f32) (truncf .bf16 w bitsLt_bf16_f32)
      (constant (F := Ideal) S5000x128 .f32 0x00000000#32) (ix2 p q) = ∑ k : Fin 128, a (ix2 p k) * w (ix2 k q) := by
  rw [shapeCast_self]
  exact mm_at a w p q

/-! ## The bias row at an entry -/

/-- The bias row, recast twice to its own shape and then repeated down the 5000 rows, reads its entry q in every row. -/
theorem bias_at (b : FVec Ideal S1x128 .f32) (p : Fin 5000) (q : Fin 128) :
    broadcastTo S5000x128 (shapeCast S1x128 (shapeCast S1x128 b shapeCasts_S1x128_S1x128) shapeCasts_S1x128_S1x128)
      broadcasts_S1x128_S5000x128 (ix2 p q) = b (ix2 (0 : Fin 1) q) := by
  rw [shapeCast_self, shapeCast_self]
  exact broadcastTo_1b_ab_apply b broadcasts_S1x128_S5000x128 p q

/-! ## The three tiles

Each body is the sum of the two products plus the repeated bias row, entry by entry; the first two then take the
entrywise maximum with the repeated scalar zero.  In the first layer the second left factor is not recast. -/

/-- The first layer's tile, rectified. -/
theorem pay0_at (x0 x1 : Vec Ideal S5000x128 .f32) (x2 x3 : Vec Ideal S128x128 .f32) (x4 : Vec Ideal S1x128 .f32)
    (p : Fin 5000) (q : Fin 128) :
    k0_pay1 (F := Ideal) x0 x1 x2 x3 x4 (ix2 p q) = max (tileAt x0 x1 x2 x3 x4 p q) (Ideal.ofBits .f32 0x00000000#32) := by
  show max ((matmul (F := Ideal) dot_S5000x128_S128x128_S5000x128_1_0_0_1_n_n none
          (truncf .bf16 (shapeCast S5000x128 x0 shapeCasts_S5000x128_S5000x128) bitsLt_bf16_f32) (truncf .bf16 x2 bitsLt_bf16_f32)
          (constant (F := Ideal) S5000x128 .f32 0x00000000#32) (ix2 p q)
        + matmul (F := Ideal) dot_S5000x128_S128x128_S5000x128_1_0_0_1_n_n none
          (truncf .bf16 x1 bitsLt_bf16_f32) (truncf .bf16 x3 bitsLt_bf16_f32)
          (constant (F := Ideal) S5000x128 .f32 0x00000000#32) (ix2 p q))
      + broadcastTo S5000x128 (shapeCast S1x128 (shapeCast S1x128 x4 shapeCasts_S1x128_S1x128) shapeCasts_S1x128_S1x128)
          broadcasts_S1x128_S5000x128 (ix2 p q)) (Ideal.ofBits .f32 0x00000000#32)
    = max (tileAt x0 x1 x2 x3 x4 p q) (Ideal.ofBits .f32 0x00000000#32)
  rw [mm_cast_at, mm_at, bias_at]
  rfl

/-- The second layer's tile, rectified. -/
theorem pay1_at (x0 x1 : Vec Ideal S5000x128 .f32) (x2 x3 : Vec Ideal S128x128 .f32) (x4 : Vec Ideal S1x128 .f32)
    (p : Fin 5000) (q : Fin 128) :
    k1_pay1 (F := Ideal) x0 x1 x2 x3 x4 (ix2 p q) = max (tileAt x0 x1 x2 x3 x4 p q) (Ideal.ofBits .f32 0x00000000#32) := by
  show max ((matmul (F := Ideal) dot_S5000x128_S128x128_S5000x128_1_0_0_1_n_n none
          (truncf .bf16 (shapeCast S5000x128 x0 shapeCasts_S5000x128_S5000x128) bitsLt_bf16_f32) (truncf .bf16 x2 bitsLt_bf16_f32)
          (constant (F := Ideal) S5000x128 .f32 0x00000000#32) (ix2 p q)
        + matmul (F := Ideal) dot_S5000x128_S128x128_S5000x128_1_0_0_1_n_n none
          (truncf .bf16 (shapeCast S5000x128 x1 shapeCasts_S5000x128_S5000x128) bitsLt_bf16_f32) (truncf .bf16 x3 bitsLt_bf16_f32)
          (constant (F := Ideal) S5000x128 .f32 0x00000000#32) (ix2 p q))
      + broadcastTo S5000x128 (shapeCast S1x128 (shapeCast S1x128 x4 shapeCasts_S1x128_S1x128) shapeCasts_S1x128_S1x128)
          broadcasts_S1x128_S5000x128 (ix2 p q)) (Ideal.ofBits .f32 0x00000000#32)
    = max (tileAt x0 x1 x2 x3 x4 p q) (Ideal.ofBits .f32 0x00000000#32)
  rw [mm_cast_at, mm_cast_at, bias_at]
  rfl

/-- The last layer's tile: no rectifier. -/
theorem pay2_at (x0 x1 : Vec Ideal S5000x128 .f32) (x2 x3 : Vec Ideal S128x128 .f32) (x4 : Vec Ideal S1x128 .f32)
    (p : Fin 5000) (q : Fin 128) :
    k2_pay1 (F := Ideal) x0 x1 x2 x3 x4 (ix2 p q) = tileAt x0 x1 x2 x3 x4 p q := by
  show (matmul (F := Ideal) dot_S5000x128_S128x128_S5000x128_1_0_0_1_n_n none
          (truncf .bf16 (shapeCast S5000x128 x0 shapeCasts_S5000x128_S5000x128) bitsLt_bf16_f32) (truncf .bf16 x2 bitsLt_bf16_f32)
          (constant (F := Ideal) S5000x128 .f32 0x00000000#32) (ix2 p q)
        + matmul (F := Ideal) dot_S5000x128_S128x128_S5000x128_1_0_0_1_n_n none
          (truncf .bf16 (shapeCast S5000x128 x1 shapeCasts_S5000x128_S5000x128) bitsLt_bf16_f32) (truncf .bf16 x3 bitsLt_bf16_f32)
          (constant (F := Ideal) S5000x128 .f32 0x00000000#32) (ix2 p q))
      + broadcastTo S5000x128 (shapeCast S1x128 (shapeCast S1x128 x4 shapeCasts_S1x128_S1x128) shapeCasts_S1x128_S1x128)
          broadcasts_S1x128_S5000x128 (ix2 p q)
    = tileAt x0 x1 x2 x3 x4 p q
  rw [mm_cast_at, mm_cast_at, bias_at]
  rfl

end Cert.KernelIdeal.TileValue

end
-- ==== Proof.Region0.lean ====
/-
  The array a tiled call leaves behind, call 0 of three: the rectified affine layer

      out (r, q) = max (((sum_k a (r,k) * w (k,q)) + sum_k h (r,k) * r' (k,q)) + b (0,q)) 0

  of the arrays the call finds on entry.

  The call runs over 10 grid points.  At point t it sees rows 5000 t .. 5000 t + 4999 of the aggregated features and of
  the node features (a block's element (p, k) sits in the array at row (block index) * 5000 + p, column k, and the
  block index along the rows is t), the two whole 128 x 128 weight matrices and the whole 1 x 128 bias row (block index
  0 on both axes), and it writes rows 5000 t .. 5000 t + 4999 of the output.  Entry (p, q) of the tile it computes
  only depends on row p of the two feature blocks, column q of the weights and entry q of the bias, so it is entry
  (5000 t + p, q) of the layer's array.  The ten row blocks tile the 50000 rows: row r lies in block r / 5000.  Hence
  after the last point the output array is the layer's array.
-/
import proofs.«179297_j1597727834802_1_alg».proof.Proof.Gen.KernelIdeal.Frame
import proofs.«179297_j1597727834802_1_alg».proof.Proof.LayerSpec
import proofs.«179297_j1597727834802_1_alg».proof.Proof.TileValue
import Idealize.ShloMosaic.Lib.Pipeline.Value

noncomputable section

open scoped BigOperators

namespace Cert.KernelIdeal.RegionValue

open Idealize.ShloMosaic Idealize.ShloMosaic.TcCoe Idealize.SL.Sem Cert.KernelIdeal Cert.KernelIdeal.Gen Cert.GraphConv
open Idealize.ShloMosaic.ValueIdx Cert.KernelIdeal.TileValue

variable (V : (c : Dev nD) → (b : Ref sig .tc) → Buf (Elt Ideal) ((c : Thread nD τ).loc b))

/-- A block that starts at offset (0, 0). -/
theorem zero_offsets0 : (![0, 0] : Fin 2 → Nat) = fun _ => 0 := funext fun a => by fin_cases a <;> rfl

/-- The block indices at grid point `t`: the two feature windows and the output window are at row block `t`, column
    block 0; the weights and the bias row are always at block (0, 0). -/
theorem index_facts0 : ∀ t : Fin cfg0.N,
      win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Entry (p, q) of the tile is entry (r, q) of the layer's array, as soon as row p of the two feature blocks is row r
    of the feature arrays and the weight and bias blocks are the weight and bias arrays (on column q). -/
theorem tile_entry0 (A H : FVec Ideal SN .f32) (W R : FVec Ideal SW .f32) (B : FVec Ideal SB2 .f32)
    (x0 x1 : Vec Ideal S5000x128 .f32) (x2 x3 : Vec Ideal S128x128 .f32) (x4 : Vec Ideal S1x128 .f32)
    (p : Fin 5000) (q : Fin 128) (r : Fin 50000)
    (h0 : ∀ k : Fin 128, x0 (ix2 p k) = A (ix2 r k))
    (h1 : ∀ k : Fin 128, x1 (ix2 p k) = H (ix2 r k))
    (h2 : ∀ k : Fin 128, x2 (ix2 k q) = W (ix2 k q))
    (h3 : ∀ k : Fin 128, x3 (ix2 k q) = R (ix2 k q))
    (h4 : x4 (ix2 (0 : Fin 1) q) = B (ix2 (0 : Fin 1) q)) :
    k0_pay1 (F := Ideal) x0 x1 x2 x3 x4 (ix2 p q) = relu (denseRow A H W R B) (ix2 r q) := by
  rw [pay0_at]
  show max (tileAt x0 x1 x2 x3 x4 p q) _ = max (denseLastAt A H W R (fun q => B (ix2 (0 : Fin 1) q)) r q) _
  unfold tileAt denseLastAt
  simp only [h0, h1, h2, h3, h4]

/-- The aggregated features' block at point `t` is rows 5000 t .. of their array. -/
theorem rows0_0 (c : Dev nD) (t : Fin cfg0.N) (p : Fin 5000) (k : Fin 128) (r : Fin 50000)
    (hr : r.val = t.val * 5000 + p.val) :
    (iblk0 V c 0 t : Vec Ideal S5000x128 .f32) (ix2 p k) = (V c main_v16 : S50000x128.Idx → EReal) (ix2 r k) := by
  obtain ⟨e0, e1, -⟩ := index_facts0 t
  unfold iblk0
  rw [View.read_apply]
  show V c main_v16 _ = V c main_v16 _
  congr 1
  funext a; apply Fin.ext
  match a with
  | ⟨0, _⟩ => show win0_0.index t (0 : Fin 2) * 5000 + 1 * p.val = r.val; omega
  | ⟨1, _⟩ => show win0_0.index t (1 : Fin 2) * 128 + 1 * k.val = k.val; omega

/-- The node features' block at point `t` is rows 5000 t .. of their array. -/
theorem rows0_1 (c : Dev nD) (t : Fin cfg0.N) (p : Fin 5000) (k : Fin 128) (r : Fin 50000)
    (hr : r.val = t.val * 5000 + p.val) :
    (iblk0 V c 1 t : Vec Ideal S5000x128 .f32) (ix2 p k) = (V c main_arg0 : S50000x128.Idx → EReal) (ix2 r k) := by
  obtain ⟨-, -, e0, e1, -⟩ := index_facts0 t
  unfold iblk0
  rw [View.read_apply]
  show V c main_arg0 _ = V c main_arg0 _
  congr 1
  funext a; apply Fin.ext
  match a with
  | ⟨0, _⟩ => show win0_1.index t (0 : Fin 2) * 5000 + 1 * p.val = r.val; omega
  | ⟨1, _⟩ => show win0_1.index t (1 : Fin 2) * 128 + 1 * k.val = k.val; omega

/-- The first weight matrix's block is the whole matrix at every point. -/
theorem whole0_2 (c : Dev nD) (t : Fin cfg0.N) (k : Fin 128) (q : Fin 128) :
    (iblk0 V c 2 t : Vec Ideal S128x128 .f32) (ix2 k q) = (V c main_arg3 : S128x128.Idx → EReal) (ix2 k q) := by
  obtain ⟨-, -, -, -, e0, e1, -⟩ := index_facts0 t
  unfold iblk0
  rw [View.read_apply]
  show V c main_arg3 _ = V c main_arg3 _
  congr 1
  funext a; apply Fin.ext
  match a with
  | ⟨0, _⟩ => show win0_2.index t (0 : Fin 2) * 128 + 1 * k.val = k.val; omega
  | ⟨1, _⟩ => show win0_2.index t (1 : Fin 2) * 128 + 1 * q.val = q.val; omega

/-- The second weight matrix's block is the whole matrix at every point. -/
theorem whole0_3 (c : Dev nD) (t : Fin cfg0.N) (k : Fin 128) (q : Fin 128) :
    (iblk0 V c 3 t : Vec Ideal S128x128 .f32) (ix2 k q) = (V c main_arg5 : S128x128.Idx → EReal) (ix2 k q) := by
  obtain ⟨-, -, -, -, -, -, e0, e1, -⟩ := index_facts0 t
  unfold iblk0
  rw [View.read_apply]
  show V c main_arg5 _ = V c main_arg5 _
  congr 1
  funext a; apply Fin.ext
  match a with
  | ⟨0, _⟩ => show win0_3.index t (0 : Fin 2) * 128 + 1 * k.val = k.val; omega
  | ⟨1, _⟩ => show win0_3.index t (1 : Fin 2) * 128 + 1 * q.val = q.val; omega

/-- The bias row's block is the whole row at every point. -/
theorem whole0_4 (c : Dev nD) (t : Fin cfg0.N) (z : Fin 1) (q : Fin 128) :
    (iblk0 V c 4 t : Vec Ideal S1x128 .f32) (ix2 z q) = (V c main_v17 : S1x128.Idx → EReal) (ix2 z q) := by
  obtain ⟨-, -, -, -, -, -, -, -, e0, e1, -⟩ := index_facts0 t
  unfold iblk0
  rw [View.read_apply]
  show V c main_v17 _ = V c main_v17 _
  congr 1
  funext a; apply Fin.ext
  match a with
  | ⟨0, _⟩ => show win0_4.index t (0 : Fin 2) * 1 + 1 * z.val = z.val; omega
  | ⟨1, _⟩ => show win0_4.index t (1 : Fin 2) * 128 + 1 * q.val = q.val; omega

/-- The layer's array: the affine part of the aggregated features `a`, the node features `h`, the weights and the bias row,
    rectified. -/
abbrev layer0 (c : Dev nD) : FVec Ideal SN .f32 :=
  relu (denseRow (V c main_v16) (V c main_arg0) (V c main_arg3) (V c main_arg5) (V c main_v17))

/-- What point `t` writes back is block `t` of the layer's array: rows 5000 t .. 5000 t + 4999. -/
theorem flushed0_eq (c : Dev nD) (t : Fin cfg0.N) :
    (dat0 (F := Ideal) V c).flushed 5 t = ((cfg0.win 5).blk t).view.read (Elt Ideal) (layer0 V c) := by
  show (cfg0.win 5).cut (grid0.coords t) ((dat0 V c).after 5 t) = _
  rw [after0_5]
  unfold out0_5
  rw [View.canon_unit_zero zero_offsets0]
  simp only [View.ld_unit_zero (S := S5000x128) zero_offsets0, View.ld_unit_zero (S := S128x128) zero_offsets0,
    View.ld_unit_zero (S := S1x128) zero_offsets0]
  funext j
  obtain ⟨p, q, rfl⟩ : ∃ (p : Fin 5000) (q : Fin 128), j = ix2 p q := ⟨j 0, j 1, eq_ix2 j⟩
  show k0_pay1 (F := Ideal) (iblk0 V c 0 t) (iblk0 V c 1 t) (iblk0 V c 2 t) (iblk0 V c 3 t) (iblk0 V c 4 t) (ix2 p q)
      = layer0 V c (((cfg0.win 5).blk t).view.emb (ix2 p q))
  obtain ⟨-, -, -, -, -, -, -, -, -, -, e0, e1⟩ := index_facts0 t
  have hp : p.val < 5000 := p.isLt
  have ht : t.val < 10 := N_0 ▸ t.isLt
  obtain ⟨r, hr⟩ : ∃ r : Fin 50000, r.val = t.val * 5000 + p.val := ⟨⟨t.val * 5000 + p.val, by omega⟩, rfl⟩
  have hemb : ((cfg0.win 5).blk t).view.emb (ix2 p q) = ix2 r q := by
    funext a; apply Fin.ext
    match a with
    | ⟨0, _⟩ => show win0_5.index t (0 : Fin 2) * 5000 + 1 * p.val = r.val; omega
    | ⟨1, _⟩ => show win0_5.index t (1 : Fin 2) * 128 + 1 * q.val = q.val; omega
  rw [hemb]
  exact tile_entry0 (V c main_v16) (V c main_arg0) (V c main_arg3) (V c main_arg5) (V c main_v17)
    (iblk0 V c 0 t) (iblk0 V c 1 t) (iblk0 V c 2 t) (iblk0 V c 3 t) (iblk0 V c 4 t) p q r
    (fun k => rows0_0 V c t p k r hr) (fun k => rows0_1 V c t p k r hr)
    (fun k => whole0_2 V c t k q) (fun k => whole0_3 V c t k q) (whole0_4 V c t 0 q)

/-- An index of the output array is in point `t`'s block iff each coordinate is in the block's range on its axis. -/
theorem mem_block0 (t : Fin cfg0.N) (i : S50000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v18).slice (win0_5.rect t)).set ↔ _
  rw [View.set_slice_whole, Rect.mem_set_unit]
  exact Iff.rfl

/-- The ten row blocks tile the array: row r lies in the block of point r / 5000, which is written back. -/
theorem cover0 (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  obtain ⟨t, ht⟩ : ∃ t : Fin cfg0.N, t.val = (i 0).val / 5000 :=
    ⟨⟨(i 0).val / 5000, by rw [show cfg0.N = 10 from N_0]; omega⟩, rfl⟩
  obtain ⟨-, -, -, -, -, -, -, -, -, -, e0, e1⟩ := index_facts0 t
  refine ⟨t, flush0_5 t, ?_⟩
  rw [mem_block0]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- After the last point the output array is the layer's array. -/
theorem final0 (c : Dev nD) : (dat0 (F := Ideal) V c).arrAt 5 cfg0.N
    = relu (denseRow (V c main_v16) (V c main_arg0) (V c main_arg3) (V c main_arg5) (V c main_v17)) :=
  (dat0 (F := Ideal) V c).arrAt_eq_of_cover 5 (layer0 V c) (fun t _ => flushed0_eq V c t) cover0

end Cert.KernelIdeal.RegionValue

end
-- ==== Proof.Region1.lean ====
/-
  The array a tiled call leaves behind, call 1 of three: the rectified affine layer

      out (r, q) = max (((sum_k a (r,k) * w (k,q)) + sum_k h (r,k) * r' (k,q)) + b (0,q)) 0

  of the arrays the call finds on entry.

  The call runs over 10 grid points.  At point t it sees rows 5000 t .. 5000 t + 4999 of the aggregated features and of
  the node features (a block's element (p, k) sits in the array at row (block index) * 5000 + p, column k, and the
  block index along the rows is t), the two whole 128 x 128 weight matrices and the whole 1 x 128 bias row (block index
  0 on both axes), and it writes rows 5000 t .. 5000 t + 4999 of the output.  Entry (p, q) of the tile it computes
  only depends on row p of the two feature blocks, column q of the weights and entry q of the bias, so it is entry
  (5000 t + p, q) of the layer's array.  The ten row blocks tile the 50000 rows: row r lies in block r / 5000.  Hence
  after the last point the output array is the layer's array.
-/
import proofs.«179297_j1597727834802_1_alg».proof.Proof.Gen.KernelIdeal.Frame
import proofs.«179297_j1597727834802_1_alg».proof.Proof.LayerSpec
import proofs.«179297_j1597727834802_1_alg».proof.Proof.TileValue
import Idealize.ShloMosaic.Lib.Pipeline.Value

noncomputable section

open scoped BigOperators

namespace Cert.KernelIdeal.RegionValue

open Idealize.ShloMosaic Idealize.ShloMosaic.TcCoe Idealize.SL.Sem Cert.KernelIdeal Cert.KernelIdeal.Gen Cert.GraphConv
open Idealize.ShloMosaic.ValueIdx Cert.KernelIdeal.TileValue

variable (V : (c : Dev nD) → (b : Ref sig .tc) → Buf (Elt Ideal) ((c : Thread nD τ).loc b))

/-- A block that starts at offset (0, 0). -/
theorem zero_offsets1 : (![0, 0] : Fin 2 → Nat) = fun _ => 0 := funext fun a => by fin_cases a <;> rfl

/-- The block indices at grid point `t`: the two feature windows and the output window are at row block `t`, column
    block 0; the weights and the bias row are always at block (0, 0). -/
theorem index_facts1 : ∀ t : Fin cfg1.N,
      win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Entry (p, q) of the tile is entry (r, q) of the layer's array, as soon as row p of the two feature blocks is row r
    of the feature arrays and the weight and bias blocks are the weight and bias arrays (on column q). -/
theorem tile_entry1 (A H : FVec Ideal SN .f32) (W R : FVec Ideal SW .f32) (B : FVec Ideal SB2 .f32)
    (x0 x1 : Vec Ideal S5000x128 .f32) (x2 x3 : Vec Ideal S128x128 .f32) (x4 : Vec Ideal S1x128 .f32)
    (p : Fin 5000) (q : Fin 128) (r : Fin 50000)
    (h0 : ∀ k : Fin 128, x0 (ix2 p k) = A (ix2 r k))
    (h1 : ∀ k : Fin 128, x1 (ix2 p k) = H (ix2 r k))
    (h2 : ∀ k : Fin 128, x2 (ix2 k q) = W (ix2 k q))
    (h3 : ∀ k : Fin 128, x3 (ix2 k q) = R (ix2 k q))
    (h4 : x4 (ix2 (0 : Fin 1) q) = B (ix2 (0 : Fin 1) q)) :
    k1_pay1 (F := Ideal) x0 x1 x2 x3 x4 (ix2 p q) = relu (denseRow A H W R B) (ix2 r q) := by
  rw [pay1_at]
  show max (tileAt x0 x1 x2 x3 x4 p q) _ = max (denseLastAt A H W R (fun q => B (ix2 (0 : Fin 1) q)) r q) _
  unfold tileAt denseLastAt
  simp only [h0, h1, h2, h3, h4]

/-- The aggregated features' block at point `t` is rows 5000 t .. of their array. -/
theorem rows1_0 (c : Dev nD) (t : Fin cfg1.N) (p : Fin 5000) (k : Fin 128) (r : Fin 50000)
    (hr : r.val = t.val * 5000 + p.val) :
    (iblk1 V c 0 t : Vec Ideal S5000x128 .f32) (ix2 p k) = (V c main_v31 : S50000x128.Idx → EReal) (ix2 r k) := by
  obtain ⟨e0, e1, -⟩ := index_facts1 t
  unfold iblk1
  rw [View.read_apply]
  show V c main_v31 _ = V c main_v31 _
  congr 1
  funext a; apply Fin.ext
  match a with
  | ⟨0, _⟩ => show win1_0.index t (0 : Fin 2) * 5000 + 1 * p.val = r.val; omega
  | ⟨1, _⟩ => show win1_0.index t (1 : Fin 2) * 128 + 1 * k.val = k.val; omega

/-- The node features' block at point `t` is rows 5000 t .. of their array. -/
theorem rows1_1 (c : Dev nD) (t : Fin cfg1.N) (p : Fin 5000) (k : Fin 128) (r : Fin 50000)
    (hr : r.val = t.val * 5000 + p.val) :
    (iblk1 V c 1 t : Vec Ideal S5000x128 .f32) (ix2 p k) = (V c main_v18 : S50000x128.Idx → EReal) (ix2 r k) := by
  obtain ⟨-, -, e0, e1, -⟩ := index_facts1 t
  unfold iblk1
  rw [View.read_apply]
  show V c main_v18 _ = V c main_v18 _
  congr 1
  funext a; apply Fin.ext
  match a with
  | ⟨0, _⟩ => show win1_1.index t (0 : Fin 2) * 5000 + 1 * p.val = r.val; omega
  | ⟨1, _⟩ => show win1_1.index t (1 : Fin 2) * 128 + 1 * k.val = k.val; omega

/-- The first weight matrix's block is the whole matrix at every point. -/
theorem whole1_2 (c : Dev nD) (t : Fin cfg1.N) (k : Fin 128) (q : Fin 128) :
    (iblk1 V c 2 t : Vec Ideal S128x128 .f32) (ix2 k q) = (V c main_arg6 : S128x128.Idx → EReal) (ix2 k q) := by
  obtain ⟨-, -, -, -, e0, e1, -⟩ := index_facts1 t
  unfold iblk1
  rw [View.read_apply]
  show V c main_arg6 _ = V c main_arg6 _
  congr 1
  funext a; apply Fin.ext
  match a with
  | ⟨0, _⟩ => show win1_2.index t (0 : Fin 2) * 128 + 1 * k.val = k.val; omega
  | ⟨1, _⟩ => show win1_2.index t (1 : Fin 2) * 128 + 1 * q.val = q.val; omega

/-- The second weight matrix's block is the whole matrix at every point. -/
theorem whole1_3 (c : Dev nD) (t : Fin cfg1.N) (k : Fin 128) (q : Fin 128) :
    (iblk1 V c 3 t : Vec Ideal S128x128 .f32) (ix2 k q) = (V c main_arg8 : S128x128.Idx → EReal) (ix2 k q) := by
  obtain ⟨-, -, -, -, -, -, e0, e1, -⟩ := index_facts1 t
  unfold iblk1
  rw [View.read_apply]
  show V c main_arg8 _ = V c main_arg8 _
  congr 1
  funext a; apply Fin.ext
  match a with
  | ⟨0, _⟩ => show win1_3.index t (0 : Fin 2) * 128 + 1 * k.val = k.val; omega
  | ⟨1, _⟩ => show win1_3.index t (1 : Fin 2) * 128 + 1 * q.val = q.val; omega

/-- The bias row's block is the whole row at every point. -/
theorem whole1_4 (c : Dev nD) (t : Fin cfg1.N) (z : Fin 1) (q : Fin 128) :
    (iblk1 V c 4 t : Vec Ideal S1x128 .f32) (ix2 z q) = (V c main_v32 : S1x128.Idx → EReal) (ix2 z q) := by
  obtain ⟨-, -, -, -, -, -, -, -, e0, e1, -⟩ := index_facts1 t
  unfold iblk1
  rw [View.read_apply]
  show V c main_v32 _ = V c main_v32 _
  congr 1
  funext a; apply Fin.ext
  match a with
  | ⟨0, _⟩ => show win1_4.index t (0 : Fin 2) * 1 + 1 * z.val = z.val; omega
  | ⟨1, _⟩ => show win1_4.index t (1 : Fin 2) * 128 + 1 * q.val = q.val; omega

/-- The layer's array: the affine part of the aggregated features `a`, the node features `h`, the weights and the bias row,
    rectified. -/
abbrev layer1 (c : Dev nD) : FVec Ideal SN .f32 :=
  relu (denseRow (V c main_v31) (V c main_v18) (V c main_arg6) (V c main_arg8) (V c main_v32))

/-- What point `t` writes back is block `t` of the layer's array: rows 5000 t .. 5000 t + 4999. -/
theorem flushed1_eq (c : Dev nD) (t : Fin cfg1.N) :
    (dat1 (F := Ideal) V c).flushed 5 t = ((cfg1.win 5).blk t).view.read (Elt Ideal) (layer1 V c) := by
  show (cfg1.win 5).cut (grid1.coords t) ((dat1 V c).after 5 t) = _
  rw [after1_5]
  unfold out1_5
  rw [View.canon_unit_zero zero_offsets1]
  simp only [View.ld_unit_zero (S := S5000x128) zero_offsets1, View.ld_unit_zero (S := S128x128) zero_offsets1,
    View.ld_unit_zero (S := S1x128) zero_offsets1]
  funext j
  obtain ⟨p, q, rfl⟩ : ∃ (p : Fin 5000) (q : Fin 128), j = ix2 p q := ⟨j 0, j 1, eq_ix2 j⟩
  show k1_pay1 (F := Ideal) (iblk1 V c 0 t) (iblk1 V c 1 t) (iblk1 V c 2 t) (iblk1 V c 3 t) (iblk1 V c 4 t) (ix2 p q)
      = layer1 V c (((cfg1.win 5).blk t).view.emb (ix2 p q))
  obtain ⟨-, -, -, -, -, -, -, -, -, -, e0, e1⟩ := index_facts1 t
  have hp : p.val < 5000 := p.isLt
  have ht : t.val < 10 := N_1 ▸ t.isLt
  obtain ⟨r, hr⟩ : ∃ r : Fin 50000, r.val = t.val * 5000 + p.val := ⟨⟨t.val * 5000 + p.val, by omega⟩, rfl⟩
  have hemb : ((cfg1.win 5).blk t).view.emb (ix2 p q) = ix2 r q := by
    funext a; apply Fin.ext
    match a with
    | ⟨0, _⟩ => show win1_5.index t (0 : Fin 2) * 5000 + 1 * p.val = r.val; omega
    | ⟨1, _⟩ => show win1_5.index t (1 : Fin 2) * 128 + 1 * q.val = q.val; omega
  rw [hemb]
  exact tile_entry1 (V c main_v31) (V c main_v18) (V c main_arg6) (V c main_arg8) (V c main_v32)
    (iblk1 V c 0 t) (iblk1 V c 1 t) (iblk1 V c 2 t) (iblk1 V c 3 t) (iblk1 V c 4 t) p q r
    (fun k => rows1_0 V c t p k r hr) (fun k => rows1_1 V c t p k r hr)
    (fun k => whole1_2 V c t k q) (fun k => whole1_3 V c t k q) (whole1_4 V c t 0 q)

/-- An index of the output array is in point `t`'s block iff each coordinate is in the block's range on its axis. -/
theorem mem_block1 (t : Fin cfg1.N) (i : S50000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v33).slice (win1_5.rect t)).set ↔ _
  rw [View.set_slice_whole, Rect.mem_set_unit]
  exact Iff.rfl

/-- The ten row blocks tile the array: row r lies in the block of point r / 5000, which is written back. -/
theorem cover1 (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  obtain ⟨t, ht⟩ : ∃ t : Fin cfg1.N, t.val = (i 0).val / 5000 :=
    ⟨⟨(i 0).val / 5000, by rw [show cfg1.N = 10 from N_1]; omega⟩, rfl⟩
  obtain ⟨-, -, -, -, -, -, -, -, -, -, e0, e1⟩ := index_facts1 t
  refine ⟨t, flush1_5 t, ?_⟩
  rw [mem_block1]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- After the last point the output array is the layer's array. -/
theorem final1 (c : Dev nD) : (dat1 (F := Ideal) V c).arrAt 5 cfg1.N
    = relu (denseRow (V c main_v31) (V c main_v18) (V c main_arg6) (V c main_arg8) (V c main_v32)) :=
  (dat1 (F := Ideal) V c).arrAt_eq_of_cover 5 (layer1 V c) (fun t _ => flushed1_eq V c t) cover1

end Cert.KernelIdeal.RegionValue

end
-- ==== Proof.Region2.lean ====
/-
  The array the last of the three tiled calls leaves behind: the affine layer, not rectified,

      out (r, q) = ((sum_k a (r,k) * w (k,q)) + sum_k h (r,k) * v (k,q)) + b (0,q)

  of the arrays the call finds on entry (a the aggregated features, h the node features, w and v the two weight
  matrices, b the bias row).

  The call runs over 10 grid points.  At point t it sees rows 5000 t .. 5000 t + 4999 of a and of h, the two whole
  128 x 128 weight matrices and the whole 1 x 128 bias row, and it writes rows 5000 t .. 5000 t + 4999 of the output.
  An element (p, k) of a block sits in its array at row (block index) * 5000 + p and column k; the block index along
  the rows is t for the feature and output windows and 0 for the weights and the bias.  Entry (p, q) of the tile only
  depends on row p of the two feature blocks, column q of the weights and entry q of the bias, so it is entry
  (5000 t + p, q) of the layer's array.  The ten row blocks tile the 50000 rows (row r lies in block r / 5000), hence
  after the last point the output array is the layer's array.
-/
import proofs.«179297_j1597727834802_1_alg».proof.Proof.Gen.KernelIdeal.Frame
import proofs.«179297_j1597727834802_1_alg».proof.Proof.LayerSpec
import proofs.«179297_j1597727834802_1_alg».proof.Proof.TileValue
import Idealize.ShloMosaic.Lib.Pipeline.Value

noncomputable section

open scoped BigOperators

namespace Cert.KernelIdeal.RegionValue

open Idealize.ShloMosaic Idealize.ShloMosaic.TcCoe Idealize.SL.Sem Cert.KernelIdeal Cert.KernelIdeal.Gen Cert.GraphConv
open Idealize.ShloMosaic.ValueIdx Cert.KernelIdeal.TileValue

variable (V : (c : Dev nD) → (b : Ref sig .tc) → Buf (Elt Ideal) ((c : Thread nD τ).loc b))

/-- A block that starts at offset (0, 0). -/
theorem zero_offsets2 : (![0, 0] : Fin 2 → Nat) = fun _ => 0 := funext fun a => by fin_cases a <;> rfl

/-- The block indices at grid point `t`: the two feature windows and the output window sit at row block `t`, column
    block 0; the weights and the bias row always sit at block (0, 0). -/
theorem index_facts2 : ∀ t : Fin cfg2.N,
      win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Entry (p, q) of the tile is entry (r, q) of the layer's array, as soon as row p of the two feature blocks is row r
    of the feature arrays and the weight and bias blocks agree with the weight and bias arrays on column q. -/
theorem tile_entry2 (A H : FVec Ideal SN .f32) (W R : FVec Ideal SW .f32) (B : FVec Ideal SB2 .f32)
    (x0 x1 : Vec Ideal S5000x128 .f32) (x2 x3 : Vec Ideal S128x128 .f32) (x4 : Vec Ideal S1x128 .f32)
    (p : Fin 5000) (q : Fin 128) (r : Fin 50000)
    (h0 : ∀ k : Fin 128, x0 (ix2 p k) = A (ix2 r k))
    (h1 : ∀ k : Fin 128, x1 (ix2 p k) = H (ix2 r k))
    (h2 : ∀ k : Fin 128, x2 (ix2 k q) = W (ix2 k q))
    (h3 : ∀ k : Fin 128, x3 (ix2 k q) = R (ix2 k q))
    (h4 : x4 (ix2 (0 : Fin 1) q) = B (ix2 (0 : Fin 1) q)) :
    k2_pay1 (F := Ideal) x0 x1 x2 x3 x4 (ix2 p q) = denseRow A H W R B (ix2 r q) := by
  rw [pay2_at]
  show tileAt x0 x1 x2 x3 x4 p q = denseLastAt A H W R (fun q => B (ix2 (0 : Fin 1) q)) r q
  unfold tileAt denseLastAt
  simp only [h0, h1, h2, h3, h4]

/-- The aggregated features' block at point `t` is rows 5000 t .. of their array. -/
theorem rows2_0 (c : Dev nD) (t : Fin cfg2.N) (p : Fin 5000) (k : Fin 128) (r : Fin 50000)
    (hr : r.val = t.val * 5000 + p.val) :
    (iblk2 V c 0 t : Vec Ideal S5000x128 .f32) (ix2 p k) = (V c main_v46 : S50000x128.Idx → EReal) (ix2 r k) := by
  obtain ⟨e0, e1, -⟩ := index_facts2 t
  unfold iblk2
  rw [View.read_apply]
  show V c main_v46 _ = V c main_v46 _
  congr 1
  funext a; apply Fin.ext
  match a with
  | ⟨0, _⟩ => show win2_0.index t (0 : Fin 2) * 5000 + 1 * p.val = r.val; omega
  | ⟨1, _⟩ => show win2_0.index t (1 : Fin 2) * 128 + 1 * k.val = k.val; omega

/-- The node features' block at point `t` is rows 5000 t .. of their array. -/
theorem rows2_1 (c : Dev nD) (t : Fin cfg2.N) (p : Fin 5000) (k : Fin 128) (r : Fin 50000)
    (hr : r.val = t.val * 5000 + p.val) :
    (iblk2 V c 1 t : Vec Ideal S5000x128 .f32) (ix2 p k) = (V c main_v33 : S50000x128.Idx → EReal) (ix2 r k) := by
  obtain ⟨-, -, e0, e1, -⟩ := index_facts2 t
  unfold iblk2
  rw [View.read_apply]
  show V c main_v33 _ = V c main_v33 _
  congr 1
  funext a; apply Fin.ext
  match a with
  | ⟨0, _⟩ => show win2_1.index t (0 : Fin 2) * 5000 + 1 * p.val = r.val; omega
  | ⟨1, _⟩ => show win2_1.index t (1 : Fin 2) * 128 + 1 * k.val = k.val; omega

/-- The first weight matrix's block is the whole matrix at every point. -/
theorem whole2_2 (c : Dev nD) (t : Fin cfg2.N) (k : Fin 128) (q : Fin 128) :
    (iblk2 V c 2 t : Vec Ideal S128x128 .f32) (ix2 k q) = (V c main_arg9 : S128x128.Idx → EReal) (ix2 k q) := by
  obtain ⟨-, -, -, -, e0, e1, -⟩ := index_facts2 t
  unfold iblk2
  rw [View.read_apply]
  show V c main_arg9 _ = V c main_arg9 _
  congr 1
  funext a; apply Fin.ext
  match a with
  | ⟨0, _⟩ => show win2_2.index t (0 : Fin 2) * 128 + 1 * k.val = k.val; omega
  | ⟨1, _⟩ => show win2_2.index t (1 : Fin 2) * 128 + 1 * q.val = q.val; omega

/-- The second weight matrix's block is the whole matrix at every point. -/
theorem whole2_3 (c : Dev nD) (t : Fin cfg2.N) (k : Fin 128) (q : Fin 128) :
    (iblk2 V c 3 t : Vec Ideal S128x128 .f32) (ix2 k q) = (V c main_arg11 : S128x128.Idx → EReal) (ix2 k q) := by
  obtain ⟨-, -, -, -, -, -, e0, e1, -⟩ := index_facts2 t
  unfold iblk2
  rw [View.read_apply]
  show V c main_arg11 _ = V c main_arg11 _
  congr 1
  funext a; apply Fin.ext
  match a with
  | ⟨0, _⟩ => show win2_3.index t (0 : Fin 2) * 128 + 1 * k.val = k.val; omega
  | ⟨1, _⟩ => show win2_3.index t (1 : Fin 2) * 128 + 1 * q.val = q.val; omega

/-- The bias row's block is the whole row at every point. -/
theorem whole2_4 (c : Dev nD) (t : Fin cfg2.N) (z : Fin 1) (q : Fin 128) :
    (iblk2 V c 4 t : Vec Ideal S1x128 .f32) (ix2 z q) = (V c main_v47 : S1x128.Idx → EReal) (ix2 z q) := by
  obtain ⟨-, -, -, -, -, -, -, -, e0, e1, -⟩ := index_facts2 t
  unfold iblk2
  rw [View.read_apply]
  show V c main_v47 _ = V c main_v47 _
  congr 1
  funext a; apply Fin.ext
  match a with
  | ⟨0, _⟩ => show win2_4.index t (0 : Fin 2) * 1 + 1 * z.val = z.val; omega
  | ⟨1, _⟩ => show win2_4.index t (1 : Fin 2) * 128 + 1 * q.val = q.val; omega

/-- The layer's array: the affine part of the aggregated features, the node features, the two weight matrices and the
    bias row, with no rectifier. -/
abbrev layer2 (c : Dev nD) : FVec Ideal SN .f32 :=
  denseRow (V c main_v46) (V c main_v33) (V c main_arg9) (V c main_arg11) (V c main_v47)

/-- What point `t` writes back is block `t` of the layer's array: rows 5000 t .. 5000 t + 4999. -/
theorem flushed2_eq (c : Dev nD) (t : Fin cfg2.N) :
    (dat2 (F := Ideal) V c).flushed 5 t = ((cfg2.win 5).blk t).view.read (Elt Ideal) (layer2 V c) := by
  show (cfg2.win 5).cut (grid2.coords t) ((dat2 V c).after 5 t) = _
  rw [after2_5]
  unfold out2_5
  rw [View.canon_unit_zero zero_offsets2]
  simp only [View.ld_unit_zero (S := S5000x128) zero_offsets2, View.ld_unit_zero (S := S128x128) zero_offsets2,
    View.ld_unit_zero (S := S1x128) zero_offsets2]
  funext j
  obtain ⟨p, q, rfl⟩ : ∃ (p : Fin 5000) (q : Fin 128), j = ix2 p q := ⟨j 0, j 1, eq_ix2 j⟩
  show k2_pay1 (F := Ideal) (iblk2 V c 0 t) (iblk2 V c 1 t) (iblk2 V c 2 t) (iblk2 V c 3 t) (iblk2 V c 4 t) (ix2 p q)
      = layer2 V c (((cfg2.win 5).blk t).view.emb (ix2 p q))
  obtain ⟨-, -, -, -, -, -, -, -, -, -, e0, e1⟩ := index_facts2 t
  have hp : p.val < 5000 := p.isLt
  have ht : t.val < 10 := N_2 ▸ t.isLt
  obtain ⟨r, hr⟩ : ∃ r : Fin 50000, r.val = t.val * 5000 + p.val := ⟨⟨t.val * 5000 + p.val, by omega⟩, rfl⟩
  have hemb : ((cfg2.win 5).blk t).view.emb (ix2 p q) = ix2 r q := by
    funext a; apply Fin.ext
    match a with
    | ⟨0, _⟩ => show win2_5.index t (0 : Fin 2) * 5000 + 1 * p.val = r.val; omega
    | ⟨1, _⟩ => show win2_5.index t (1 : Fin 2) * 128 + 1 * q.val = q.val; omega
  rw [hemb]
  exact tile_entry2 (V c main_v46) (V c main_v33) (V c main_arg9) (V c main_arg11) (V c main_v47)
    (iblk2 V c 0 t) (iblk2 V c 1 t) (iblk2 V c 2 t) (iblk2 V c 3 t) (iblk2 V c 4 t) p q r
    (fun k => rows2_0 V c t p k r hr) (fun k => rows2_1 V c t p k r hr)
    (fun k => whole2_2 V c t k q) (fun k => whole2_3 V c t k q) (whole2_4 V c t 0 q)

/-- An index of the output array is in point `t`'s block iff each coordinate is in the block's range on its axis. -/
theorem mem_block2 (t : Fin cfg2.N) (i : S50000x128.Idx) :
    i ∈ ((cfg2.win 5).blk t).view.set ↔ ∀ a : Fin 2, win2_5.index t a * S5000x128.size a ≤ (i a).val
      ∧ (i a).val < win2_5.index t a * S5000x128.size a + S5000x128.size a := by
  show i ∈ ((View.whole main_v48).slice (win2_5.rect t)).set ↔ _
  rw [View.set_slice_whole, Rect.mem_set_unit]
  exact Iff.rfl

/-- The ten row blocks tile the array: row r lies in the block of point r / 5000, and every point writes back. -/
theorem cover2 (i : S50000x128.Idx) :
    ∃ t : Fin cfg2.N, (cfg2.win 5).flush t = true ∧ i ∈ ((cfg2.win 5).blk t).view.set := by
  have hi0 : (i 0).val < 50000 := (i 0).isLt
  have hi1 : (i 1).val < 128 := (i 1).isLt
  obtain ⟨t, ht⟩ : ∃ t : Fin cfg2.N, t.val = (i 0).val / 5000 :=
    ⟨⟨(i 0).val / 5000, by rw [show cfg2.N = 10 from N_2]; omega⟩, rfl⟩
  obtain ⟨-, -, -, -, -, -, -, -, -, -, e0, e1⟩ := index_facts2 t
  refine ⟨t, flush2_5 t, ?_⟩
  rw [mem_block2]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 128 ≤ (i 1).val ∧ (i 1).val < win2_5.index t (1 : Fin 2) * 128 + 128; omega

/-- After the last point the output array is the layer's array. -/
theorem final2 (c : Dev nD) : (dat2 (F := Ideal) V c).arrAt 5 cfg2.N
    = denseRow (V c main_v46) (V c main_v33) (V c main_arg9) (V c main_arg11) (V c main_v47) :=
  (dat2 (F := Ideal) V c).arrAt_eq_of_cover 5 (layer2 V c) (fun t _ => flushed2_eq V c t) cover2

end Cert.KernelIdeal.RegionValue

end
-- ==== Proof.RefNet.lean ====
/-
  The plain program, read one operation at a time, computes the three-layer network of the layer specification.

  Every layer of the plain program is: aggregate the current features over the edges (a gather, a product with the
  edge weights and a scatter-add; kept here as an opaque function of the features), multiply the aggregated array
  and the features by their weight matrices, and add the bias between the two products.  An entry of a matrix
  product is the sum over the 128 contracted positions, so an entry of the layer's affine stage is the
  specification's entry; the rectifier is the entrywise maximum with the constant zero.
-/
import proofs.«179297_j1597727834802_1_alg».proof.Proof.LayerSpec
import proofs.«179297_j1597727834802_1_alg».proof.Proof.Gen.ReferenceIdeal.Read

noncomputable section

open scoped BigOperators

namespace Cert.ReferenceIdeal.RefValue

open Idealize.ShloMosaic Idealize.ShloMosaic.ValueIdx Cert.ReferenceIdeal Cert.ReferenceIdeal.Gen
  Cert.ReferenceIdeal.Read Cert.GraphConv

/-! ## The positions a matrix product and the bias's two broadcasts read -/

/-- Entry (p, q) of a product reads row p of the left factor. -/
theorem lidx_eq (p : Fin 50000) (q k : Fin 128) : lidx_main_v21 (ix2 p q) k = ix2 p k :=
  funext fun a => Fin.ext (by match a with | ⟨0, _⟩ => rfl | ⟨1, _⟩ => rfl)

/-- Entry (p, q) of a product reads column q of the right factor. -/
theorem ridx_eq (p : Fin 50000) (q k : Fin 128) : ridx_main_v21 (ix2 p q) k = ix2 k q :=
  funext fun a => Fin.ext (by match a with | ⟨0, _⟩ => rfl | ⟨1, _⟩ => rfl)

/-- Entry (p, q) of the bias laid out over all rows reads entry q of the vector. -/
theorem bidx_eq (p : Fin 50000) (q : Fin 128) : idx_main_v18 (idx_main_v19 (ix2 p q)) = ix1 q :=
  funext fun a => Fin.ext (by match a with | ⟨0, _⟩ => rfl)

/-! ## One layer's affine stage -/

/-- A product with a weight matrix, the bias added, and a second product added: the specification's affine stage,
    whatever the two arrays of features are. -/
theorem affine_eq (a h : FVec Ideal SN .f32) (w r : FVec Ideal SW .f32) (b : FVec Ideal SB .f32) :
    addf (addf (val_main_v21 (F := Ideal) a w) (val_main_v19 (F := Ideal) b)) (val_main_v21 (F := Ideal) h r)
      = dense a h w r b := by
  funext i
  obtain ⟨p, q, rfl⟩ : ∃ (p : Fin 50000) (q : Fin 128), i = ix2 p q := ⟨i 0, i 1, eq_ix2 i⟩
  show (val_main_v21 (F := Ideal) a w (ix2 p q) + val_main_v19 (F := Ideal) b (ix2 p q))
      + val_main_v21 (F := Ideal) h r (ix2 p q) = denseAt a h w r (fun q => b (ix1 q)) p q
  rw [val_main_v21_apply, val_main_v21_apply, val_main_v19_apply, val_main_v18_apply, bidx_eq]
  simp only [lidx_eq, ridx_eq]
  rfl

/-! ## The aggregation stages -/

/-- The first layer's scatter-add stage is the specification's aggregation of the input features. -/
theorem agg1_eq (x0 : FVec Ideal SN .f32) (x1 : Vec Ideal S2E .i32) (x2 : FVec Ideal SE .f32) :
    val_main_v16 (F := Ideal) x0 x1 x2 = aggregate x1 x2 x0 := rfl

/-- The second layer's scatter-add stage is the same aggregation, of the first layer's output. -/
theorem agg2_eq (x0 : FVec Ideal SN .f32) (x1 : Vec Ideal S2E .i32) (x2 : FVec Ideal SE .f32)
    (x3 : FVec Ideal SW .f32) (x4 : FVec Ideal SB .f32) (x5 : FVec Ideal SW .f32) :
    val_main_v36 (F := Ideal) x0 x1 x2 x3 x4 x5 = aggregate x1 x2 (val_main_v23 (F := Ideal) x0 x1 x2 x3 x4 x5) := rfl

/-- The third layer's scatter-add stage is the same aggregation, of the second layer's output. -/
theorem agg3_eq (x0 : FVec Ideal SN .f32) (x1 : Vec Ideal S2E .i32) (x2 : FVec Ideal SE .f32)
    (x3 : FVec Ideal SW .f32) (x4 : FVec Ideal SB .f32) (x5 x6 : FVec Ideal SW .f32) (x7 : FVec Ideal SB .f32)
    (x8 : FVec Ideal SW .f32) :
    val_main_v56 (F := Ideal) x0 x1 x2 x3 x4 x5 x6 x7 x8
      = aggregate x1 x2 (val_main_v43 (F := Ideal) x0 x1 x2 x3 x4 x5 x6 x7 x8) := rfl

/-! ## The rectifier stage -/

/-- The entrywise maximum with an array that holds the zero word everywhere is the rectifier. -/
theorem relu_eq (y z : FVec Ideal SN .f32) (hz : ∀ i, z i = Ideal.ofBits .f32 0x00000000#32) :
    maximumf y z = relu y := by
  funext i
  show max (y i) (z i) = max (y i) (Ideal.ofBits .f32 0x00000000#32)
  rw [hz]

/-- The first rectifier's constant array holds the zero word everywhere. -/
theorem zero0_apply (i : SN.Idx) : val_main_call0_v0 (F := Ideal) i = Ideal.ofBits .f32 0x00000000#32 := by
  rw [val_main_call0_v0_apply, val_main_call0_cst_apply]
  rfl

/-- The second rectifier's constant array holds the zero word everywhere. -/
theorem zero1_apply (i : SN.Idx) : val_main_call1_v0 (F := Ideal) i = Ideal.ofBits .f32 0x00000000#32 := by
  rw [val_main_call1_v0_apply, val_main_call1_cst_apply]
  rfl

/-! ## The three layers -/

/-- The first layer's affine stage. -/
theorem layer1_affine (x0 : FVec Ideal SN .f32) (x1 : Vec Ideal S2E .i32) (x2 : FVec Ideal SE .f32)
    (x3 : FVec Ideal SW .f32) (x4 : FVec Ideal SB .f32) (x5 : FVec Ideal SW .f32) :
    val_main_v22 (F := Ideal) x0 x1 x2 x3 x4 x5 = dense (aggregate x1 x2 x0) x0 x3 x5 x4 := by
  rw [← affine_eq, ← agg1_eq]
  rfl

/-- The first layer's output. -/
theorem layer1 (x0 : FVec Ideal SN .f32) (x1 : Vec Ideal S2E .i32) (x2 : FVec Ideal SE .f32)
    (x3 : FVec Ideal SW .f32) (x4 : FVec Ideal SB .f32) (x5 : FVec Ideal SW .f32) :
    val_main_v23 (F := Ideal) x0 x1 x2 x3 x4 x5 = relu (dense (aggregate x1 x2 x0) x0 x3 x5 x4) := by
  rw [← layer1_affine]
  exact relu_eq _ _ zero0_apply

/-- The second layer's affine stage, on the first layer's output. -/
theorem layer2_affine (x0 : FVec Ideal SN .f32) (x1 : Vec Ideal S2E .i32) (x2 : FVec Ideal SE .f32)
    (x3 : FVec Ideal SW .f32) (x4 : FVec Ideal SB .f32) (x5 x6 : FVec Ideal SW .f32) (x7 : FVec Ideal SB .f32)
    (x8 : FVec Ideal SW .f32) :
    val_main_v42 (F := Ideal) x0 x1 x2 x3 x4 x5 x6 x7 x8
      = dense (aggregate x1 x2 (val_main_v23 (F := Ideal) x0 x1 x2 x3 x4 x5))
          (val_main_v23 (F := Ideal) x0 x1 x2 x3 x4 x5) x6 x8 x7 := by
  rw [← affine_eq, ← agg2_eq]
  rfl

/-- The second layer's output. -/
theorem layer2 (x0 : FVec Ideal SN .f32) (x1 : Vec Ideal S2E .i32) (x2 : FVec Ideal SE .f32)
    (x3 : FVec Ideal SW .f32) (x4 : FVec Ideal SB .f32) (x5 x6 : FVec Ideal SW .f32) (x7 : FVec Ideal SB .f32)
    (x8 : FVec Ideal SW .f32) :
    val_main_v43 (F := Ideal) x0 x1 x2 x3 x4 x5 x6 x7 x8
      = relu (dense (aggregate x1 x2 (val_main_v23 (F := Ideal) x0 x1 x2 x3 x4 x5))
          (val_main_v23 (F := Ideal) x0 x1 x2 x3 x4 x5) x6 x8 x7) := by
  rw [← layer2_affine]
  exact relu_eq _ _ zero1_apply

/-- The third layer's affine stage, on the second layer's output: the program's result. -/
theorem layer3 (x0 : FVec Ideal SN .f32) (x1 : Vec Ideal S2E .i32) (x2 : FVec Ideal SE .f32)
    (x3 : FVec Ideal SW .f32) (x4 : FVec Ideal SB .f32) (x5 x6 : FVec Ideal SW .f32) (x7 : FVec Ideal SB .f32)
    (x8 x9 : FVec Ideal SW .f32) (x10 : FVec Ideal SB .f32) (x11 : FVec Ideal SW .f32) :
    val_main_v62 (F := Ideal) x0 x1 x2 x3 x4 x5 x6 x7 x8 x9 x10 x11
      = dense (aggregate x1 x2 (val_main_v43 (F := Ideal) x0 x1 x2 x3 x4 x5 x6 x7 x8))
          (val_main_v43 (F := Ideal) x0 x1 x2 x3 x4 x5 x6 x7 x8) x9 x11 x10 := by
  rw [← affine_eq, ← agg3_eq]
  rfl

/-! ## The whole program -/

/-- The plain program's result is the three-layer network of the specification, every layer aggregating over the
    same edges. -/
theorem ref_net (x0 : FVec Ideal SN .f32) (x1 : Vec Ideal S2E .i32) (x2 : FVec Ideal SE .f32)
    (x3 : FVec Ideal SW .f32) (x4 : FVec Ideal SB .f32) (x5 x6 : FVec Ideal SW .f32) (x7 : FVec Ideal SB .f32)
    (x8 x9 : FVec Ideal SW .f32) (x10 : FVec Ideal SB .f32) (x11 : FVec Ideal SW .f32) :
    Read.val_main_v62 (F := Ideal) x0 x1 x2 x3 x4 x5 x6 x7 x8 x9 x10 x11
      = net (aggregate x1 x2) x0 x3 x4 x5 x6 x7 x8 x9 x10 x11 := by
  rw [layer3, layer2, layer1]
  rfl

end Cert.ReferenceIdeal.RefValue

end
-- ==== Proof.Assemble.lean ====
/-
  The two programs compute the same three-layer network.

  The tiled program: every tiled call leaves in its output array the layer's affine map of the arrays it found, the
  bias added last (rectified in the first two layers); what it found are the neighbourhood sums of the current
  features, the current features, the layer's two weight matrices and its bias as a row.  Regrouping the three
  summands (addition on the extended reals is commutative and associative) gives the layer of the specification, so
  the result array ends at the specification's network of the twelve arguments.  The plain program's result is the
  same network, read one operation at a time.  From memories that agree on the arguments the two results are equal.
-/
import proofs.«179297_j1597727834802_1_alg».proof.Defs
import proofs.«179297_j1597727834802_1_alg».proof.Proof.Gen.Kernel
import proofs.«179297_j1597727834802_1_alg».proof.Proof.Gen.Kernel.Frame
import proofs.«179297_j1597727834802_1_alg».proof.Proof.Gen.KernelIdeal
import proofs.«179297_j1597727834802_1_alg».proof.Proof.Gen.ReferenceIdeal
import proofs.«179297_j1597727834802_1_alg».proof.Proof.Gen.Pre_finite_inputs
import proofs.«179297_j1597727834802_1_alg».proof.Proof.KernelRun
import proofs.«179297_j1597727834802_1_alg».proof.Proof.HostStretch
import proofs.«179297_j1597727834802_1_alg».proof.Proof.Region0
import proofs.«179297_j1597727834802_1_alg».proof.Proof.Region1
import proofs.«179297_j1597727834802_1_alg».proof.Proof.Region2
import proofs.«179297_j1597727834802_1_alg».proof.Proof.RefNet
import Idealize.ShloMosaic.Lib.Pipeline.Value

set_option maxRecDepth 16384

noncomputable section

namespace Cert.KernelIdeal.NetValue

open Idealize.ShloMosaic Idealize.ShloMosaic.TcCoe Idealize.ShloMosaic.ValueIdx Idealize.SL.Sem
open Cert.KernelIdeal Cert.KernelIdeal.Gen Cert.GraphConv Cert.KernelIdeal.HostValue Cert.KernelIdeal.RegionValue

variable (m : (ℓ : Loc nD τ sig) → Buf (Elt Ideal) ℓ) (ρ : Dev nD → PrngReg)

/-- A bias vector laid out as one row holds the vector's entries. -/
theorem bias_row (b : FVec Ideal SB .f32) (h : SB.ShapeCasts SB2) (q : Fin 128) :
    shapeCast SB2 b h (ix2 (0 : Fin 1) q) = b (ix1 q) :=
  shapeCast_apply b h (ix2 (0 : Fin 1) q) (ix1 q) (by
    rw [Shape.rowMajor_val_one, Shape.rowMajor_val_two]
    show q.val = (0 : Fin 1).val * 128 + q.val
    simp)

/-- The features after the first layer. -/
abbrev feat1 (c : Dev nD) : FVec Ideal SN .f32 :=
  relu (dense (aggregate (m ((c : Thread nD τ).loc main_arg1)) (m ((c : Thread nD τ).loc main_arg2)) (m ((c : Thread nD τ).loc main_arg0))) (m ((c : Thread nD τ).loc main_arg0)) (m ((c : Thread nD τ).loc main_arg3)) (m ((c : Thread nD τ).loc main_arg5)) (m ((c : Thread nD τ).loc main_arg4)))

/-- The features after the second layer. -/
abbrev feat2 (c : Dev nD) : FVec Ideal SN .f32 :=
  relu (dense (aggregate (m ((c : Thread nD τ).loc main_arg1)) (m ((c : Thread nD τ).loc main_arg2)) (feat1 m c)) (feat1 m c) (m ((c : Thread nD τ).loc main_arg6)) (m ((c : Thread nD τ).loc main_arg8)) (m ((c : Thread nD τ).loc main_arg7)))

/-- The first layer's output, as the first tiled call leaves it. -/
theorem first_layer (c : Dev nD) : W2 m ρ c (Proc.devRef .tc main_v18) = feat1 m c := by
  refine (W2_arr m ρ c 5).trans ((final0 (V1 m ρ) c).trans ?_)
  rw [V1_agg, V1_bias, V1_keep m ρ c main_arg0 (by decide), V1_keep m ρ c main_arg3 (by decide),
    V1_keep m ρ c main_arg5 (by decide)]
  rw [denseRow_eq _ _ _ _ _ _ (bias_row _ _)]

/-- The second layer's output, as the second tiled call leaves it. -/
theorem second_layer (c : Dev nD) : W4 m ρ c (Proc.devRef .tc main_v33) = feat2 m c := by
  refine (W4_arr m ρ c 5).trans ((final1 (V3 m ρ) c).trans ?_)
  rw [V3_agg, V3_bias, V3_keep m ρ c main_v18 (by decide), first_layer,
    V3_launch m ρ c main_arg6 (by decide) (by decide) (by decide),
    V3_launch m ρ c main_arg8 (by decide) (by decide) (by decide)]
  rw [denseRow_eq _ _ _ _ _ _ (bias_row _ _)]

/-- The result array, as the third tiled call leaves it: the three-layer network of the arguments. -/
theorem kernel_value (c : Dev nD) :
    W6 m ρ c (Proc.devRef .tc main_v48)
      = net (aggregate (m ((c : Thread nD τ).loc main_arg1)) (m ((c : Thread nD τ).loc main_arg2))) (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (W6_arr m ρ c 5).trans ((final2 (V5 m ρ) c).trans ?_)
  rw [V5_agg, V5_bias, V5_keep m ρ c main_v33 (by decide), second_layer,
    V5_launch m ρ c main_arg9 (by decide) (by decide) (by decide) (by decide) (by decide),
    V5_launch m ρ c main_arg11 (by decide) (by decide) (by decide) (by decide) (by decide)]
  rw [denseRow_eq _ _ _ _ _ _ (bias_row _ _)]
  rfl

end Cert.KernelIdeal.NetValue

namespace Cert.Proof.Claims

open Idealize.ShloMosaic Idealize.SL.Sem Cert.GraphConv

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)
theorem preserves : Cert.preserves_Kernel_KernelIdeal := trivial

theorem algebraic : Cert.algebraic_KernelIdeal_ReferenceIdeal := by
  intro m ρ m' ρ' _ hagree
  refine ⟨_, (θ_run Cert.KernelIdeal.defs _ _).mono
      (fun r h c => ⟨(h c).1.trans (Cert.KernelIdeal.NetValue.kernel_value m ρ c), (h c).2⟩)
      (Cert.KernelIdeal.RunValue.run (F := Ideal) m ρ), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v62_eq, Cert.ReferenceIdeal.RefValue.ref_net]
  obtain ⟨e0, e1, e2, e3, e4, e5, e6, e7, e8, e9, e10, e11⟩ := hagree c
  rw [e0, e1, e2, e3, e4, e5, e6, e7, e8, e9, e10, e11]

end Cert.Proof.Claims
end
-- ==== Proof.lean ====
/-
  A three-layer graph convolution, tiled over the nodes, against the plain three-layer graph convolution.

  Every layer maps node features h to (agg h) · W + b + h · R, where agg h sums, for every edge, the source node's
  row of h times the edge's weight into the target node's row; the first two layers are followed by the maximum with
  zero.  The tiled program computes agg h with plain array operations, then the two matrix products, the bias and
  the rectifier in a tiled call over blocks of 5000 nodes, adding the bias last; the plain program adds the bias
  between the two products.  On the extended reals the two groupings agree, with no finiteness assumption.

  The three frames: the tiled programs' are generated; the plain program's is its generated run with the result
  dropped.  The idealized tiled program is the tiled program's own text read on the extended reals (no rewrite), so
  there is nothing to preserve.  The value claim is assembled in Proof/Assemble.lean from: the layer specification
  (Proof/LayerSpec.lean), one tile's value (Proof/TileValue.lean), each tiled call's output array
  (Proof/Region0.lean, Region1.lean, Region2.lean), the arrays the calls find (Proof/HostStretch.lean), the tiled
  program's run with its result named (Proof/KernelRun.lean) and the plain program read operation by operation
  (Proof/RefNet.lean).
-/
import proofs.«179297_j1597727834802_1_alg».proof.Defs
import proofs.«179297_j1597727834802_1_alg».proof.Proof.Gen.Kernel
import proofs.«179297_j1597727834802_1_alg».proof.Proof.Gen.Kernel.Skeleton
import proofs.«179297_j1597727834802_1_alg».proof.Proof.Gen.Kernel.Launch
import proofs.«179297_j1597727834802_1_alg».proof.Proof.Gen.Kernel.Points
import proofs.«179297_j1597727834802_1_alg».proof.Proof.Gen.Kernel.Frame
import proofs.«179297_j1597727834802_1_alg».proof.Proof.Gen.KernelIdeal
import proofs.«179297_j1597727834802_1_alg».proof.Proof.Gen.KernelIdeal.Skeleton
import proofs.«179297_j1597727834802_1_alg».proof.Proof.Gen.KernelIdeal.Launch
import proofs.«179297_j1597727834802_1_alg».proof.Proof.Gen.KernelIdeal.Points
import proofs.«179297_j1597727834802_1_alg».proof.Proof.Gen.KernelIdeal.Frame
import proofs.«179297_j1597727834802_1_alg».proof.Proof.Gen.ReferenceIdeal
import proofs.«179297_j1597727834802_1_alg».proof.Proof.Gen.Pre_finite_inputs
import proofs.«179297_j1597727834802_1_alg».proof.Proof.Gen.ReferenceIdeal.Run
import proofs.«179297_j1597727834802_1_alg».proof.Proof.Gen.ReferenceIdeal.Read
import proofs.«179297_j1597727834802_1_alg».proof.Proof.Assemble
import Idealize.ShloMosaic.Adequacy
import Idealize.ShloMosaic.Init

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
